-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x1 : Shape := ⟨2, ![2000000, 1]⟩
abbrev S8x8 : Shape := ⟨2, ![8, 8]⟩
abbrev S16x8 : Shape := ⟨2, ![16, 8]⟩
abbrev S32x8 : Shape := ⟨2, ![32, 8]⟩
abbrev S64x8 : Shape := ⟨2, ![64, 8]⟩
abbrev S128x8 : Shape := ⟨2, ![128, 8]⟩
abbrev S256x8 : Shape := ⟨2, ![256, 8]⟩
abbrev S_ : Shape := ⟨0, ![]⟩

class Facts : Prop where
  bcast_S_S2000000x1 : S_.BroadcastsInDim S2000000x1 (![] : Fin 0 → Fin S2000000x1.rank)
  reducesTo_S2000000x1_S_d0_1 : S2000000x1.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_
  bcast_S_S16x8 : S_.BroadcastsInDim S16x8 (![] : Fin 0 → Fin S16x8.rank)
  reducesTo_S16x8_S_d0_1 : S16x8.ReducesTo [0, 1] S_
  bcast_S_S32x8 : S_.BroadcastsInDim S32x8 (![] : Fin 0 → Fin S32x8.rank)
  reducesTo_S32x8_S_d0_1 : S32x8.ReducesTo [0, 1] S_
  bcast_S_S64x8 : S_.BroadcastsInDim S64x8 (![] : Fin 0 → Fin S64x8.rank)
  reducesTo_S64x8_S_d0_1 : S64x8.ReducesTo [0, 1] S_
  bcast_S_S128x8 : S_.BroadcastsInDim S128x8 (![] : Fin 0 → Fin S128x8.rank)
  reducesTo_S128x8_S_d0_1 : S128x8.ReducesTo [0, 1] S_
  bcast_S_S256x8 : S_.BroadcastsInDim S256x8 (![] : Fin 0 → Fin S256x8.rank)
  reducesTo_S256x8_S_d0_1 : S256x8.ReducesTo [0, 1] S_

variable [Facts]

def fn_part1 {F : FTy → Type} [FloatOps F] (main_arg4 : FVec F S64x8 .f32) (main_arg5 : FVec F S128x8 .f32) (main_arg6 : FVec F S256x8 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S64x8 .f32 := Host.absf main_arg4
  let main_cst_6 : FVec F S_ .f32 := constant S_ .f32 0x7F800000#32
  let main_v20 : FVec F S64x8 .f32 := broadcastInDim S64x8 ![] bcast_S_S64x8 main_cst_6
  let main_v21 : IVec S64x8 1 := cmpf .olt main_v19 main_v20
  let main_c_7 : IVec S_ 1 := constantI S_ 1 1#1
  let main_v22 : IVec S_ 1 := (fun x v => Host.reduce IntOp.andi x v reducesTo_S64x8_S_d0_1 h_S_) main_v21 main_c_7
  let main_v23 : IVec S_ 1 := andi main_v18 main_v22
  let main_v24 : FVec F S128x8 .f32 := Host.absf main_arg5
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S256x8 .f32 := Host.absf main_arg6
  let main_cst_10 : FVec F S_ .f32 := constant S_ .f32 0x7F800000#32
  let main_v30 : FVec F S256x8 .f32 := broadcastInDim S256x8 ![] bcast_S_S256x8 main_cst_10
  let main_v31 : IVec S256x8 1 := cmpf .olt main_v29 main_v30
  let main_c_11 : IVec S_ 1 := constantI S_ 1 1#1
  let main_v32 : IVec S_ 1 := (fun x v => Host.reduce IntOp.andi x v reducesTo_S256x8_S_d0_1 h_S_) main_v31 main_c_11
  let main_v33 : IVec S_ 1 := andi main_v28 main_v32
  main_v33

def fn {F : FTy → Type} [FloatOps F] (main_arg0 : FVec F S2000000x1 .f32) (main_arg1 : FVec F S8x8 .f32) (main_arg2 : FVec F S16x8 .f32) (main_arg3 : FVec F S32x8 .f32) (main_arg4 : FVec F S64x8 .f32) (main_arg5 : FVec F S128x8 .f32) (main_arg6 : FVec F S256x8 .f32) : IVec S_ 1 :=
  let main_v0 : FVec F S2000000x1 .f32 := Host.absf main_arg0
  let main_cst : FVec F S_ .f32 := constant S_ .f32 0x7F800000#32
  let main_v1 : FVec F S2000000x1 .f32 := broadcastInDim S2000000x1 ![] bcast_S_S2000000x1 main_cst
  let main_v2 : IVec S2000000x1 1 := cmpf .olt main_v0 main_v1
  let main_c : IVec S_ 1 := constantI S_ 1 1#1
  let main_v3 : IVec S_ 1 := (fun x v => Host.reduce IntOp.andi x v reducesTo_S2000000x1_S_d0_1 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S16x8 .f32 := Host.absf main_arg2
  let main_cst_2 : FVec F S_ .f32 := constant S_ .f32 0x7F800000#32
  let main_v10 : FVec F S16x8 .f32 := broadcastInDim S16x8 ![] bcast_S_S16x8 main_cst_2
  let main_v11 : IVec S16x8 1 := cmpf .olt main_v9 main_v10
  let main_c_3 : IVec S_ 1 := constantI S_ 1 1#1
  let main_v12 : IVec S_ 1 := (fun x v => Host.reduce IntOp.andi x v reducesTo_S16x8_S_d0_1 h_S_) main_v11 main_c_3
  let main_v13 : IVec S_ 1 := andi main_v8 main_v12
  let main_v14 : FVec F S32x8 .f32 := Host.absf main_arg3
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg4 main_arg5 main_arg6 main_v13 main_v16
-- ==== Kernel.lean ====
abbrev S2000000x1 : Shape := ⟨2, ![2000000, 1]⟩
abbrev S8x8 : Shape := ⟨2, ![8, 8]⟩
abbrev S16x8 : Shape := ⟨2, ![16, 8]⟩
abbrev S32x8 : Shape := ⟨2, ![32, 8]⟩
abbrev S64x8 : Shape := ⟨2, ![64, 8]⟩
abbrev S128x8 : Shape := ⟨2, ![128, 8]⟩
abbrev S256x8 : Shape := ⟨2, ![256, 8]⟩
abbrev S2000000x48 : Shape := ⟨2, ![2000000, 48]⟩
abbrev S2000x1 : Shape := ⟨2, ![2000, 1]⟩
abbrev S2000x48 : Shape := ⟨2, ![2000, 48]⟩
abbrev S2000x256 : Shape := ⟨2, ![2000, 256]⟩
abbrev S2000 : Shape := ⟨1, ![2000]⟩
abbrev S2000x8 : Shape := ⟨2, ![2000, 8]⟩
abbrev S2000x16 : Shape := ⟨2, ![2000, 16]⟩
abbrev S2000x32 : Shape := ⟨2, ![2000, 32]⟩
abbrev S2000x64 : Shape := ⟨2, ![2000, 64]⟩
abbrev S2000x128 : Shape := ⟨2, ![2000, 128]⟩

abbrev nBuf : Space → Nat
  | .hbm => 8
  | .vmem => 11
  | .smem => 0
  | _ => 0

abbrev bufTy : (tb : Table) → Fin (tcTables nBuf tb) → BufTy
  | .hbm, ⟨0, _⟩ => ⟨S2000000x1, .f32⟩
  | .hbm, ⟨1, _⟩ => ⟨S8x8, .f32⟩
  | .hbm, ⟨2, _⟩ => ⟨S16x8, .f32⟩
  | .hbm, ⟨3, _⟩ => ⟨S32x8, .f32⟩
  | .hbm, ⟨4, _⟩ => ⟨S64x8, .f32⟩
  | .hbm, ⟨5, _⟩ => ⟨S128x8, .f32⟩
  | .hbm, ⟨6, _⟩ => ⟨S256x8, .f32⟩
  | .hbm, ⟨7, _⟩ => ⟨S2000000x48, .f32⟩
  | .local _ .vmem, ⟨0, _⟩ => ⟨S2000x1, .f32⟩
  | .local _ .vmem, ⟨1, _⟩ => ⟨S2000x1, .f32⟩
  | .local _ .vmem, ⟨2, _⟩ => ⟨S8x8, .f32⟩
  | .local _ .vmem, ⟨3, _⟩ => ⟨S16x8, .f32⟩
  | .local _ .vmem, ⟨4, _⟩ => ⟨S32x8, .f32⟩
  | .local _ .vmem, ⟨5, _⟩ => ⟨S64x8, .f32⟩
  | .local _ .vmem, ⟨6, _⟩ => ⟨S128x8, .f32⟩
  | .local _ .vmem, ⟨7, _⟩ => ⟨S256x8, .f32⟩
  | .local _ .vmem, ⟨8, _⟩ => ⟨S2000x48, .f32⟩
  | .local _ .vmem, ⟨9, _⟩ => ⟨S2000x48, .f32⟩
  | .local _ .vmem, ⟨10, _⟩ => ⟨S2000x256, .f32⟩
  | _, _ => ⟨S2000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S2000x1_S2000x1_0_0 : ∀ a, (![0, 0] : Fin 2 → Nat) a + S2000x1.size a ≤ S2000x1.size a
  h_S2000x1 : 0 < S2000x1.numel
  shapeCasts_S2000x1_S2000 : S2000x1.ShapeCasts S2000
  iota_S2000x8_d1_w32 : S2000x8.Iotas .tc 32 [1]
  shapeCasts_S2000_S2000x1 : S2000.ShapeCasts S2000x1
  broadcasts_S2000x1_S2000x8 : S2000x1.Broadcasts S2000x8
  shapeCasts_S2000x1_S2000x1 : S2000x1.ShapeCasts S2000x1
  inb_S2000x256_S2000x8_0_0 : ∀ a, (![0, 0] : Fin 2 → Nat) a + S2000x8.size a ≤ S2000x256.size a
  h_S2000x8 : 0 < S2000x8.numel
  shapeCasts_S2000x8_S2000x8 : S2000x8.ShapeCasts S2000x8
  inb_S8x8_S8x8_0_0 : ∀ a, (![0, 0] : Fin 2 → Nat) a + S8x8.size a ≤ S8x8.size a
  h_S8x8 : 0 < S8x8.numel
  iota_S2000x16_d1_w32 : S2000x16.Iotas .tc 32 [1]
  broadcasts_S2000x1_S2000x16 : S2000x1.Broadcasts S2000x16
  inb_S2000x256_S2000x16_0_0 : ∀ a, (![0, 0] : Fin 2 → Nat) a + S2000x16.size a ≤ S2000x256.size a
  h_S2000x16 : 0 < S2000x16.numel
  shapeCasts_S2000x16_S2000x16 : S2000x16.ShapeCasts S2000x16
  inb_S16x8_S16x8_0_0 : ∀ a, (![0, 0] : Fin 2 → Nat) a + S16x8.size a ≤ S16x8.size a
  h_S16x8 : 0 < S16x8.numel
  iota_S2000x32_d1_w32 : S2000x32.Iotas .tc 32 [1]
  broadcasts_S2000x1_S2000x32 : S2000x1.Broadcasts S2000x32
  inb_S2000x256_S2000x32_0_0 : ∀ a, (![0, 0] : Fin 2 → Nat) a + S2000x32.size a ≤ S2000x256.size a
  h_S2000x32 : 0 < S2000x32.numel
  shapeCasts_S2000x32_S2000x32 : S2000x32.ShapeCasts S2000x32
  inb_S32x8_S32x8_0_0 : ∀ a, (![0, 0] : Fin 2 → Nat) a + S32x8.size a ≤ S32x8.size a
  h_S32x8 : 0 < S32x8.numel
  iota_S2000x64_d1_w32 : S2000x64.Iotas .tc 32 [1]
  broadcasts_S2000x1_S2000x64 : S2000x1.Broadcasts S2000x64
  inb_S2000x256_S2000x64_0_0 : ∀ a, (![0, 0] : Fin 2 → Nat) a + S2000x64.size a ≤ S2000x256.size a
  h_S2000x64 : 0 < S2000x64.numel
  shapeCasts_S2000x64_S2000x64 : S2000x64.ShapeCasts S2000x64
  inb_S64x8_S64x8_0_0 : ∀ a, (![0, 0] : Fin 2 → Nat) a + S64x8.size a ≤ S64x8.size a
  h_S64x8 : 0 < S64x8.numel
  iota_S2000x128_d1_w32 : S2000x128.Iotas .tc 32 [1]
  broadcasts_S2000x1_S2000x128 : S2000x1.Broadcasts S2000x128
  inb_S2000x256_S2000x128_0_0 : ∀ a, (![0, 0] : Fin 2 → Nat) a + S2000x128.size a ≤ S2000x256.size a
  h_S2000x128 : 0 < S2000x128.numel
  shapeCasts_S2000x128_S2000x128 : S2000x128.ShapeCasts S2000x128
  inb_S128x8_S128x8_0_0 : ∀ a, (![0, 0] : Fin 2 → Nat) a + S128x8.size a ≤ S128x8.size a
  h_S128x8 : 0 < S128x8.numel
  iota_S2000x256_d1_w32 : S2000x256.Iotas .tc 32 [1]
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x8_S256x8_0_0 : ∀ a, (![0, 0] : Fin 2 → Nat) a + S256x8.size a ≤ S256x8.size a
  h_S256x8 : 0 < S256x8.numel
  concatenates_S2000x8_S2000x8_S2000x8_S2000x8_S2000x8_S2000x8_S2000x48_d1 : Shape.Concatenates [S2000x8, S2000x8, S2000x8, S2000x8, S2000x8, S2000x8] S2000x48 1
  inb_S2000x48_S2000x48_0_0 : ∀ a, (![0, 0] : Fin 2 → Nat) a + S2000x48.size a ≤ S2000x48.size a
  h_S2000x48 : 0 < S2000x48.numel
  dot_S2000x8_S8x8_S2000x8_1_0_0_1_n_n_wf : DotDims.WF S2000x8 S8x8 S2000x8 [1] [0] [0] [1] [] []
  dot_S2000x16_S16x8_S2000x8_1_0_0_1_n_n_wf : DotDims.WF S2000x16 S16x8 S2000x8 [1] [0] [0] [1] [] []
  dot_S2000x32_S32x8_S2000x8_1_0_0_1_n_n_wf : DotDims.WF S2000x32 S32x8 S2000x8 [1] [0] [0] [1] [] []
  dot_S2000x64_S64x8_S2000x8_1_0_0_1_n_n_wf : DotDims.WF S2000x64 S64x8 S2000x8 [1] [0] [0] [1] [] []
  dot_S2000x128_S128x8_S2000x8_1_0_0_1_n_n_wf : DotDims.WF S2000x128 S128x8 S2000x8 [1] [0] [0] [1] [] []
  dot_S2000x256_S256x8_S2000x8_1_0_0_1_n_n_wf : DotDims.WF S2000x256 S256x8 S2000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S2000000x1.size a
  hwx0_0 : ∀ i : grid0.Coords, EltTy.bits .f32 = 32 ∨ (Rect.block (s := S2000000x1) S2000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x8.size a ≤ S8x8.size a
  hwx0_1 : ∀ i : grid0.Coords, EltTy.bits .f32 = 32 ∨ (Rect.block (s := S8x8) S8x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x8.size a ≤ S16x8.size a
  hwx0_2 : ∀ i : grid0.Coords, EltTy.bits .f32 = 32 ∨ (Rect.block (s := S16x8) S16x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x8.size a ≤ S32x8.size a
  hwx0_3 : ∀ i : grid0.Coords, EltTy.bits .f32 = 32 ∨ (Rect.block (s := S32x8) S32x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x8.size a ≤ S64x8.size a
  hwx0_4 : ∀ i : grid0.Coords, EltTy.bits .f32 = 32 ∨ (Rect.block (s := S64x8) S64x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x8.size a ≤ S128x8.size a
  hwx0_5 : ∀ i : grid0.Coords, EltTy.bits .f32 = 32 ∨ (Rect.block (s := S128x8) S128x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x8.size a ≤ S256x8.size a
  hwx0_6 : ∀ i : grid0.Coords, EltTy.bits .f32 = 32 ∨ (Rect.block (s := S256x8) S256x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x48.size a ≤ S2000000x48.size a
  hwx0_7 : ∀ i : grid0.Coords, EltTy.bits .f32 = 32 ∨ (Rect.block (s := S2000000x48) S2000x48.size (cc0_transform_7 i) (hinb0_7 i)).WholeWords (EltTy.packing .f32)

variable [Facts₀]

def dot_S2000x8_S8x8_S2000x8_1_0_0_1_n_n : DotDims S2000x8 S8x8 S2000x8 where
  lhsContracting := [1]
  rhsContracting := [0]
  lhsNonContracting := [0]
  rhsNonContracting := [1]
  lhsBatch := []
  rhsBatch := []
  wf := dot_S2000x8_S8x8_S2000x8_1_0_0_1_n_n_wf
def dot_S2000x16_S16x8_S2000x8_1_0_0_1_n_n : DotDims S2000x16 S16x8 S2000x8 where
  lhsContracting := [1]
  rhsContracting := [0]
  lhsNonContracting := [0]
  rhsNonContracting := [1]
  lhsBatch := []
  rhsBatch := []
  wf := dot_S2000x16_S16x8_S2000x8_1_0_0_1_n_n_wf
def dot_S2000x32_S32x8_S2000x8_1_0_0_1_n_n : DotDims S2000x32 S32x8 S2000x8 where
  lhsContracting := [1]
  rhsContracting := [0]
  lhsNonContracting := [0]
  rhsNonContracting := [1]
  lhsBatch := []
  rhsBatch := []
  wf := dot_S2000x32_S32x8_S2000x8_1_0_0_1_n_n_wf
def dot_S2000x64_S64x8_S2000x8_1_0_0_1_n_n : DotDims S2000x64 S64x8 S2000x8 where
  lhsContracting := [1]
  rhsContracting := [0]
  lhsNonContracting := [0]
  rhsNonContracting := [1]
  lhsBatch := []
  rhsBatch := []
  wf := dot_S2000x64_S64x8_S2000x8_1_0_0_1_n_n_wf
def dot_S2000x128_S128x8_S2000x8_1_0_0_1_n_n : DotDims S2000x128 S128x8 S2000x8 where
  lhsContracting := [1]
  rhsContracting := [0]
  lhsNonContracting := [0]
  rhsNonContracting := [1]
  lhsBatch := []
  rhsBatch := []
  wf := dot_S2000x128_S128x8_S2000x8_1_0_0_1_n_n_wf
def dot_S2000x256_S256x8_S2000x8_1_0_0_1_n_n : DotDims S2000x256 S256x8 S2000x8 where
  lhsContracting := [1]
  rhsContracting := [0]
  lhsNonContracting := [0]
  rhsNonContracting := [1]
  lhsBatch := []
  rhsBatch := []
  wf := dot_S2000x256_S256x8_S2000x8_1_0_0_1_n_n_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2000x48.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2000000x1 : Shape := ⟨2, ![2000000, 1]⟩
abbrev S8x8 : Shape := ⟨2, ![8, 8]⟩
abbrev S16x8 : Shape := ⟨2, ![16, 8]⟩
abbrev S32x8 : Shape := ⟨2, ![32, 8]⟩
abbrev S64x8 : Shape := ⟨2, ![64, 8]⟩
abbrev S128x8 : Shape := ⟨2, ![128, 8]⟩
abbrev S256x8 : Shape := ⟨2, ![256, 8]⟩
abbrev S2000000 : Shape := ⟨1, ![2000000]⟩
abbrev S_ : Shape := ⟨0, ![]⟩
abbrev S2000000x8 : Shape := ⟨2, ![2000000, 8]⟩
abbrev S2000000x48 : Shape := ⟨2, ![2000000, 48]⟩

abbrev nBuf : Space → Nat
  | .hbm => 287
  | .vmem => 0
  | .smem => 0
  | _ => 0

abbrev hbmTy0_0 (i : Nat) : BufTy := match i % 128 with
  | 0 => ⟨S2000000x1, .f32⟩
  | 1 => ⟨S8x8, .f32⟩
  | 2 => ⟨S16x8, .f32⟩
  | 3 => ⟨S32x8, .f32⟩
  | 4 => ⟨S64x8, .f32⟩
  | 5 => ⟨S128x8, .f32⟩
  | 6 => ⟨S256x8, .f32⟩
  | 7 => ⟨S2000000, .f32⟩
  | 8 => ⟨S_, .f32⟩
  | 9 => ⟨S_, .f32⟩
  | 10 => ⟨S_, .f32⟩
  | 11 => ⟨S2000000, .f32⟩
  | 12 => ⟨S2000000, .f32⟩
  | 13 => ⟨S_, .f32⟩
  | 14 => ⟨S2000000, .f32⟩
  | 15 => ⟨S2000000, .f32⟩
  | 16 => ⟨S_, .f32⟩
  | 17 => ⟨S2000000, .f32⟩
  | 18 => ⟨S2000000, .f32⟩
  | 19 => ⟨S2000000, .f32⟩
  | 20 => ⟨S2000000, .i32⟩
  | 21 => ⟨S_, .i32⟩
  | 22 => ⟨S_, .i32⟩
  | 23 => ⟨S_, .i32⟩
  | 24 => ⟨S2000000, .i32⟩
  | 25 => ⟨S2000000, .i32⟩
  | 26 => ⟨S_, .i32⟩
  | 27 => ⟨S2000000, .i32⟩
  | 28 => ⟨S2000000, .i32⟩
  | 29 => ⟨S2000000, .f32⟩
  | 30 => ⟨S2000000, .f32⟩
  | 31 => ⟨S2000000x1, .f32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S2000000x8, .f32⟩
  | 41 => ⟨S_, .f32⟩
  | 42 => ⟨S2000000x1, .f32⟩
  | 43 => ⟨S2000000x1, .f32⟩
  | 44 => ⟨S2000000x8, .f32⟩
  | 45 => ⟨S2000000x8, .f32⟩
  | 46 => ⟨S_, .i32⟩
  | 47 => ⟨S2000000, .i32⟩
  | 48 => ⟨S2000000, .i32⟩
  | 49 => ⟨S_, .i32⟩
  | 50 => ⟨S2000000, .i32⟩
  | 51 => ⟨S2000000, .i1⟩
  | 52 => ⟨S_, .i32⟩
  | 53 => ⟨S2000000, .i32⟩
  | 54 => ⟨S2000000, .i32⟩
  | 55 => ⟨S2000000, .i32⟩
  | 56 => ⟨S2000000x1, .i32⟩
  | 57 => ⟨S2000000x8, .f32⟩
  | 58 => ⟨S2000000x8, .f32⟩
  | 59 => ⟨S2000000x8, .f32⟩
  | 60 => ⟨S2000000x8, .f32⟩
  | 61 => ⟨S_, .f32⟩
  | 62 => ⟨S2000000, .f32⟩
  | 63 => ⟨S2000000, .f32⟩
  | 64 => ⟨S2000000, .f32⟩
  | 65 => ⟨S2000000, .i32⟩
  | 66 => ⟨S_, .i32⟩
  | 67 => ⟨S_, .i32⟩
  | 68 => ⟨S_, .i32⟩
  | 69 => ⟨S2000000, .i32⟩
  | 70 => ⟨S2000000, .i32⟩
  | 71 => ⟨S_, .i32⟩
  | 72 => ⟨S2000000, .i32⟩
  | 73 => ⟨S2000000, .i32⟩
  | 74 => ⟨S2000000, .f32⟩
  | 75 => ⟨S2000000, .f32⟩
  | 76 => ⟨S2000000x1, .f32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S2000000x1, .i32⟩
  | 85 => ⟨S2000000x8, .f32⟩
  | 86 => ⟨S_, .f32⟩
  | 87 => ⟨S2000000x1, .f32⟩
  | 88 => ⟨S2000000x1, .f32⟩
  | 89 => ⟨S2000000x8, .f32⟩
  | 90 => ⟨S2000000x8, .f32⟩
  | 91 => ⟨S_, .i32⟩
  | 92 => ⟨S2000000, .i32⟩
  | 93 => ⟨S2000000, .i32⟩
  | 94 => ⟨S_, .i32⟩
  | 95 => ⟨S2000000, .i32⟩
  | 96 => ⟨S2000000, .i1⟩
  | 97 => ⟨S_, .i32⟩
  | 98 => ⟨S2000000, .i32⟩
  | 99 => ⟨S2000000, .i32⟩
  | 100 => ⟨S2000000, .i32⟩
  | 101 => ⟨S2000000x1, .i32⟩
  | 102 => ⟨S2000000x8, .f32⟩
  | 103 => ⟨S2000000x8, .f32⟩
  | 104 => ⟨S2000000x8, .f32⟩
  | 105 => ⟨S2000000x8, .f32⟩
  | 106 => ⟨S_, .f32⟩
  | 107 => ⟨S2000000, .f32⟩
  | 108 => ⟨S2000000, .f32⟩
  | 109 => ⟨S2000000, .f32⟩
  | 110 => ⟨S2000000, .i32⟩
  | 111 => ⟨S_, .i32⟩
  | 112 => ⟨S_, .i32⟩
  | 113 => ⟨S_, .i32⟩
  | 114 => ⟨S2000000, .i32⟩
  | 115 => ⟨S2000000, .i32⟩
  | 116 => ⟨S_, .i32⟩
  | 117 => ⟨S2000000, .i32⟩
  | 118 => ⟨S2000000, .i32⟩
  | 119 => ⟨S2000000, .f32⟩
  | 120 => ⟨S2000000, .f32⟩
  | 121 => ⟨S2000000x1, .f32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i32⟩
  | _ => ⟨S2000000x1, .f32⟩

abbrev hbmTy0_1 (i : Nat) : BufTy := match i % 128 with
  | 0 => ⟨S2000000, .i32⟩
  | 1 => ⟨S2000000x1, .i32⟩
  | 2 => ⟨S2000000x8, .f32⟩
  | 3 => ⟨S_, .f32⟩
  | 4 => ⟨S2000000x1, .f32⟩
  | 5 => ⟨S2000000x1, .f32⟩
  | 6 => ⟨S2000000x8, .f32⟩
  | 7 => ⟨S2000000x8, .f32⟩
  | 8 => ⟨S_, .i32⟩
  | 9 => ⟨S2000000, .i32⟩
  | 10 => ⟨S2000000, .i32⟩
  | 11 => ⟨S_, .i32⟩
  | 12 => ⟨S2000000, .i32⟩
  | 13 => ⟨S2000000, .i1⟩
  | 14 => ⟨S_, .i32⟩
  | 15 => ⟨S2000000, .i32⟩
  | 16 => ⟨S2000000, .i32⟩
  | 17 => ⟨S2000000, .i32⟩
  | 18 => ⟨S2000000x1, .i32⟩
  | 19 => ⟨S2000000x8, .f32⟩
  | 20 => ⟨S2000000x8, .f32⟩
  | 21 => ⟨S2000000x8, .f32⟩
  | 22 => ⟨S2000000x8, .f32⟩
  | 23 => ⟨S_, .f32⟩
  | 24 => ⟨S2000000, .f32⟩
  | 25 => ⟨S2000000, .f32⟩
  | 26 => ⟨S2000000, .f32⟩
  | 27 => ⟨S2000000, .i32⟩
  | 28 => ⟨S_, .i32⟩
  | 29 => ⟨S_, .i32⟩
  | 30 => ⟨S_, .i32⟩
  | 31 => ⟨S2000000, .i32⟩
  | 32 => ⟨S2000000, .i32⟩
  | 33 => ⟨S_, .i32⟩
  | 34 => ⟨S2000000, .i32⟩
  | 35 => ⟨S2000000, .i32⟩
  | 36 => ⟨S2000000, .f32⟩
  | 37 => ⟨S2000000, .f32⟩
  | 38 => ⟨S2000000x1, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000x8, .f32⟩
  | 48 => ⟨S_, .f32⟩
  | 49 => ⟨S2000000x1, .f32⟩
  | 50 => ⟨S2000000x1, .f32⟩
  | 51 => ⟨S2000000x8, .f32⟩
  | 52 => ⟨S2000000x8, .f32⟩
  | 53 => ⟨S_, .i32⟩
  | 54 => ⟨S2000000, .i32⟩
  | 55 => ⟨S2000000, .i32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x8, .f32⟩
  | 65 => ⟨S2000000x8, .f32⟩
  | 66 => ⟨S2000000x8, .f32⟩
  | 67 => ⟨S2000000x8, .f32⟩
  | 68 => ⟨S_, .f32⟩
  | 69 => ⟨S2000000, .f32⟩
  | 70 => ⟨S2000000, .f32⟩
  | 71 => ⟨S2000000, .f32⟩
  | 72 => ⟨S2000000, .i32⟩
  | 73 => ⟨S_, .i32⟩
  | 74 => ⟨S_, .i32⟩
  | 75 => ⟨S_, .i32⟩
  | 76 => ⟨S2000000, .i32⟩
  | 77 => ⟨S2000000, .i32⟩
  | 78 => ⟨S_, .i32⟩
  | 79 => ⟨S2000000, .i32⟩
  | 80 => ⟨S2000000, .i32⟩
  | 81 => ⟨S2000000, .f32⟩
  | 82 => ⟨S2000000, .f32⟩
  | 83 => ⟨S2000000x1, .f32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S2000000x1, .i32⟩
  | 92 => ⟨S2000000x8, .f32⟩
  | 93 => ⟨S_, .f32⟩
  | 94 => ⟨S2000000x1, .f32⟩
  | 95 => ⟨S2000000x1, .f32⟩
  | 96 => ⟨S2000000x8, .f32⟩
  | 97 => ⟨S2000000x8, .f32⟩
  | 98 => ⟨S_, .i32⟩
  | 99 => ⟨S2000000, .i32⟩
  | 100 => ⟨S2000000, .i32⟩
  | 101 => ⟨S_, .i32⟩
  | 102 => ⟨S2000000, .i32⟩
  | 103 => ⟨S2000000, .i1⟩
  | 104 => ⟨S_, .i32⟩
  | 105 => ⟨S2000000, .i32⟩
  | 106 => ⟨S2000000, .i32⟩
  | 107 => ⟨S2000000, .i32⟩
  | 108 => ⟨S2000000x1, .i32⟩
  | 109 => ⟨S2000000x8, .f32⟩
  | 110 => ⟨S2000000x8, .f32⟩
  | 111 => ⟨S2000000x8, .f32⟩
  | 112 => ⟨S2000000x8, .f32⟩
  | 113 => ⟨S_, .f32⟩
  | 114 => ⟨S2000000, .f32⟩
  | 115 => ⟨S2000000, .f32⟩
  | 116 => ⟨S2000000, .f32⟩
  | 117 => ⟨S2000000, .i32⟩
  | 118 => ⟨S_, .i32⟩
  | 119 => ⟨S_, .i32⟩
  | 120 => ⟨S_, .i32⟩
  | 121 => ⟨S2000000, .i32⟩
  | 122 => ⟨S2000000, .i32⟩
  | 123 => ⟨S_, .i32⟩
  | 124 => ⟨S2000000, .i32⟩
  | 125 => ⟨S2000000, .i32⟩
  | 126 => ⟨S2000000, .f32⟩
  | 127 => ⟨S2000000, .f32⟩
  | _ => ⟨S2000000x1, .f32⟩

abbrev hbmTy0_2 (i : Nat) : BufTy := match i % 128 with
  | 0 => ⟨S2000000x1, .f32⟩
  | 1 => ⟨S_, .i32⟩
  | 2 => ⟨S2000000, .i32⟩
  | 3 => ⟨S2000000, .i1⟩
  | 4 => ⟨S_, .i32⟩
  | 5 => ⟨S2000000, .i32⟩
  | 6 => ⟨S2000000, .i32⟩
  | 7 => ⟨S2000000, .i32⟩
  | 8 => ⟨S2000000x1, .i32⟩
  | 9 => ⟨S2000000x8, .f32⟩
  | 10 => ⟨S_, .f32⟩
  | 11 => ⟨S2000000x1, .f32⟩
  | 12 => ⟨S2000000x1, .f32⟩
  | 13 => ⟨S2000000x8, .f32⟩
  | 14 => ⟨S2000000x8, .f32⟩
  | 15 => ⟨S_, .i32⟩
  | 16 => ⟨S2000000, .i32⟩
  | 17 => ⟨S2000000, .i32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S2000000x8, .f32⟩
  | 27 => ⟨S2000000x8, .f32⟩
  | 28 => ⟨S2000000x8, .f32⟩
  | 29 => ⟨S2000000x8, .f32⟩
  | 30 => ⟨S2000000x48, .f32⟩
  | _ => ⟨S2000000x1, .f32⟩

abbrev hbmTy (i : Nat) : BufTy := match i / 128 with
  | 0 => hbmTy0_0 i
  | 1 => hbmTy0_1 i
  | 2 => hbmTy0_2 i
  | _ => ⟨S2000000x1, .f32⟩

abbrev bufTy : (tb : Table) → Fin (tcTables nBuf tb) → BufTy
  | .hbm, ⟨i, _⟩ => hbmTy i
  | _, _ => ⟨S2000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_3 : Ref sig .tc := ⟨.hbm, 32, rfl⟩
abbrev main_v10 : Ref sig .tc := ⟨.hbm, 33, rfl⟩
abbrev main_v11 : Ref sig .tc := ⟨.hbm, 34, rfl⟩
abbrev main_c_4 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_c_7 : Ref sig .tc := ⟨.hbm, 49, rfl⟩
abbrev main_v23 : Ref sig .tc := ⟨.hbm, 50, rfl⟩
abbrev main_v24 : Ref sig .tc := ⟨.hbm, 51, rfl⟩
abbrev main_c_8 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_10 : Ref sig .tc := ⟨.hbm, 66, rfl⟩
abbrev main_c_11 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_12 : Ref sig .tc := ⟨.hbm, 77, rfl⟩
abbrev main_v41 : Ref sig .tc := ⟨.hbm, 78, rfl⟩
abbrev main_v42 : Ref sig .tc := ⟨.hbm, 79, rfl⟩
abbrev main_c_13 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_14 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_15 : Ref sig .tc := ⟨.hbm, 91, rfl⟩
abbrev main_v52 : Ref sig .tc := ⟨.hbm, 92, rfl⟩
abbrev main_v53 : Ref sig .tc := ⟨.hbm, 93, rfl⟩
abbrev main_c_16 : Ref sig .tc := ⟨.hbm, 94, rfl⟩
abbrev main_v54 : Ref sig .tc := ⟨.hbm, 95, rfl⟩
abbrev main_v55 : Ref sig .tc := ⟨.hbm, 96, rfl⟩
abbrev main_c_17 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_18 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_19 : Ref sig .tc := ⟨.hbm, 111, rfl⟩
abbrev main_c_20 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_21 : Ref sig .tc := ⟨.hbm, 122, rfl⟩
abbrev main_v72 : Ref sig .tc := ⟨.hbm, 123, rfl⟩
abbrev main_v73 : Ref sig .tc := ⟨.hbm, 124, rfl⟩
abbrev main_c_22 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_23 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_c_24 : Ref sig .tc := ⟨.hbm, 136, rfl⟩
abbrev main_v83 : Ref sig .tc := ⟨.hbm, 137, rfl⟩
abbrev main_v84 : Ref sig .tc := ⟨.hbm, 138, rfl⟩
abbrev main_c_25 : Ref sig .tc := ⟨.hbm, 139, rfl⟩
abbrev main_v85 : Ref sig .tc := ⟨.hbm, 140, rfl⟩
abbrev main_v86 : Ref sig .tc := ⟨.hbm, 141, rfl⟩
abbrev main_c_26 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_27 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_c_28 : Ref sig .tc := ⟨.hbm, 156, rfl⟩
abbrev main_c_29 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_c_30 : Ref sig .tc := ⟨.hbm, 167, rfl⟩
abbrev main_v103 : Ref sig .tc := ⟨.hbm, 168, rfl⟩
abbrev main_v104 : Ref sig .tc := ⟨.hbm, 169, rfl⟩
abbrev main_c_31 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_cst_32 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_c_33 : Ref sig .tc := ⟨.hbm, 181, rfl⟩
abbrev main_v114 : Ref sig .tc := ⟨.hbm, 182, rfl⟩
abbrev main_v115 : Ref sig .tc := ⟨.hbm, 183, rfl⟩
abbrev main_c_34 : Ref sig .tc := ⟨.hbm, 184, rfl⟩
abbrev main_v116 : Ref sig .tc := ⟨.hbm, 185, rfl⟩
abbrev main_v117 : Ref sig .tc := ⟨.hbm, 186, rfl⟩
abbrev main_c_35 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_cst_36 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_c_37 : Ref sig .tc := ⟨.hbm, 201, rfl⟩
abbrev main_c_38 : Ref sig .tc := ⟨.hbm, 202, rfl⟩
abbrev main_call5_v0 : Ref sig .tc := ⟨.hbm, 203, rfl⟩
abbrev main_call5_v1 : Ref sig .tc := ⟨.hbm, 204, rfl⟩
abbrev main_call5_v2 : Ref sig .tc := ⟨.hbm, 205, rfl⟩
abbrev main_call5_v3 : Ref sig .tc := ⟨.hbm, 206, rfl⟩
abbrev main_call5_v4 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_c_39 : Ref sig .tc := ⟨.hbm, 212, rfl⟩
abbrev main_v134 : Ref sig .tc := ⟨.hbm, 213, rfl⟩
abbrev main_v135 : Ref sig .tc := ⟨.hbm, 214, rfl⟩
abbrev main_c_40 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_cst_41 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_c_42 : Ref sig .tc := ⟨.hbm, 226, rfl⟩
abbrev main_v145 : Ref sig .tc := ⟨.hbm, 227, rfl⟩
abbrev main_v146 : Ref sig .tc := ⟨.hbm, 228, rfl⟩
abbrev main_c_43 : Ref sig .tc := ⟨.hbm, 229, rfl⟩
abbrev main_v147 : Ref sig .tc := ⟨.hbm, 230, rfl⟩
abbrev main_v148 : Ref sig .tc := ⟨.hbm, 231, rfl⟩
abbrev main_c_44 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_cst_45 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_c_46 : Ref sig .tc := ⟨.hbm, 246, rfl⟩
abbrev main_c_47 : Ref sig .tc := ⟨.hbm, 247, rfl⟩
abbrev main_call6_v0 : Ref sig .tc := ⟨.hbm, 248, rfl⟩
abbrev main_call6_v1 : Ref sig .tc := ⟨.hbm, 249, rfl⟩
abbrev main_call6_v2 : Ref sig .tc := ⟨.hbm, 250, rfl⟩
abbrev main_call6_v3 : Ref sig .tc := ⟨.hbm, 251, rfl⟩
abbrev main_call6_v4 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_c_48 : Ref sig .tc := ⟨.hbm, 257, rfl⟩
abbrev main_v165 : Ref sig .tc := ⟨.hbm, 258, rfl⟩
abbrev main_v166 : Ref sig .tc := ⟨.hbm, 259, rfl⟩
abbrev main_c_49 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_cst_50 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_c_51 : Ref sig .tc := ⟨.hbm, 271, rfl⟩
abbrev main_v176 : Ref sig .tc := ⟨.hbm, 272, rfl⟩
abbrev main_v177 : Ref sig .tc := ⟨.hbm, 273, rfl⟩
abbrev main_c_52 : Ref sig .tc := ⟨.hbm, 274, rfl⟩
abbrev main_v178 : Ref sig .tc := ⟨.hbm, 275, rfl⟩
abbrev main_v179 : Ref sig .tc := ⟨.hbm, 276, rfl⟩
abbrev main_c_53 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩

abbrev nD : Nat := 1
abbrev τ : Topo := Topo.v7x

variable {F : FTy → Type} [FloatOps F]

class Facts₀ : Prop where
  shapeCasts_S2000000x1_S2000000 : S2000000x1.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S2000000x1_S2000000x8_0_1 : S2000000x1.BroadcastsInDim S2000000x8 (![0, 1] : Fin 2 → Fin S2000000x8.rank)
  concatenates_S2000000x8_S2000000x8_S2000000x8_S2000000x8_S2000000x8_S2000000x8_S2000000x48_d1 : Shape.Concatenates [S2000000x8, S2000000x8, S2000000x8, S2000000x8, S2000000x8, S2000000x8] S2000000x48 1
  gather_S8x8_S2000000x1_S2000000x8_1_0_n_n_0_1_18_wf : GatherDims.WF S8x8 S2000000x1 S2000000x8 [1] [0] [] [0] [] 1 ![1, 8]
  gather_S16x8_S2000000x1_S2000000x8_1_0_n_n_0_1_18_wf : GatherDims.WF S16x8 S2000000x1 S2000000x8 [1] [0] [] [0] [] 1 ![1, 8]
  gather_S32x8_S2000000x1_S2000000x8_1_0_n_n_0_1_18_wf : GatherDims.WF S32x8 S2000000x1 S2000000x8 [1] [0] [] [0] [] 1 ![1, 8]
  gather_S64x8_S2000000x1_S2000000x8_1_0_n_n_0_1_18_wf : GatherDims.WF S64x8 S2000000x1 S2000000x8 [1] [0] [] [0] [] 1 ![1, 8]
  gather_S128x8_S2000000x1_S2000000x8_1_0_n_n_0_1_18_wf : GatherDims.WF S128x8 S2000000x1 S2000000x8 [1] [0] [] [0] [] 1 ![1, 8]
  gather_S256x8_S2000000x1_S2000000x8_1_0_n_n_0_1_18_wf : GatherDims.WF S256x8 S2000000x1 S2000000x8 [1] [0] [] [0] [] 1 ![1, 8]

variable [Facts₀]

def gather_S8x8_S2000000x1_S2000000x8_1_0_n_n_0_1_18 : GatherDims S8x8 S2000000x1 S2000000x8 where
  offsetDims := [1]
  collapsedSliceDims := [0]
  operandBatchingDims := []
  startIndicesBatchingDims := []
  startIndexMap := [0]
  indexVectorDim := 1
  sliceSizes := ![1, 8]
  wf := gather_S8x8_S2000000x1_S2000000x8_1_0_n_n_0_1_18_wf
def gather_S16x8_S2000000x1_S2000000x8_1_0_n_n_0_1_18 : GatherDims S16x8 S2000000x1 S2000000x8 where
  offsetDims := [1]
  collapsedSliceDims := [0]
  operandBatchingDims := []
  startIndicesBatchingDims := []
  startIndexMap := [0]
  indexVectorDim := 1
  sliceSizes := ![1, 8]
  wf := gather_S16x8_S2000000x1_S2000000x8_1_0_n_n_0_1_18_wf
def gather_S32x8_S2000000x1_S2000000x8_1_0_n_n_0_1_18 : GatherDims S32x8 S2000000x1 S2000000x8 where
  offsetDims := [1]
  collapsedSliceDims := [0]
  operandBatchingDims := []
  startIndicesBatchingDims := []
  startIndexMap := [0]
  indexVectorDim := 1
  sliceSizes := ![1, 8]
  wf := gather_S32x8_S2000000x1_S2000000x8_1_0_n_n_0_1_18_wf
def gather_S64x8_S2000000x1_S2000000x8_1_0_n_n_0_1_18 : GatherDims S64x8 S2000000x1 S2000000x8 where
  offsetDims := [1]
  collapsedSliceDims := [0]
  operandBatchingDims := []
  startIndicesBatchingDims := []
  startIndexMap := [0]
  indexVectorDim := 1
  sliceSizes := ![1, 8]
  wf := gather_S64x8_S2000000x1_S2000000x8_1_0_n_n_0_1_18_wf
def gather_S128x8_S2000000x1_S2000000x8_1_0_n_n_0_1_18 : GatherDims S128x8 S2000000x1 S2000000x8 where
  offsetDims := [1]
  collapsedSliceDims := [0]
  operandBatchingDims := []
  startIndicesBatchingDims := []
  startIndexMap := [0]
  indexVectorDim := 1
  sliceSizes := ![1, 8]
  wf := gather_S128x8_S2000000x1_S2000000x8_1_0_n_n_0_1_18_wf
def gather_S256x8_S2000000x1_S2000000x8_1_0_n_n_0_1_18 : GatherDims S256x8 S2000000x1 S2000000x8 where
  offsetDims := [1]
  collapsedSliceDims := [0]
  operandBatchingDims := []
  startIndicesBatchingDims := []
  startIndexMap := [0]
  indexVectorDim := 1
  sliceSizes := ![1, 8]
  wf := gather_S256x8_S2000000x1_S2000000x8_1_0_n_n_0_1_18_wf

class Facts : Prop extends Facts₀ where

variable [Facts]
-- ==== Proof.LibColumns.lean ====
/-
  Columns of a matrix, read at an index.

  A matrix [a, b] is cut into columns [a, 1] by unit-width slices, a column is flattened to a vector [a], and
  columns are joined side by side into a matrix again; one axis up, slabs [a, 1, c] are stacked along the middle
  axis into [a, b, c]. Each lemma reads one of these steps at an index given by its coordinates, for any extents
  and any element type: flattening a column keeps its rows, a unit-width slice at offset o is column o, and the
  piece of a side-by-side join of unit-width pieces that holds coordinate q of the joined axis is piece q.
-/
import Idealize.ShloMosaic.Lib.Pipeline.Value
import Idealize.ShloMosaic.Lib.ValueIdx

noncomputable section

namespace Cert.Lib.Columns

open Idealize.ShloMosaic Idealize.ShloMosaic.ValueIdx

variable {α : Type}

/-- A column flattened [a, 1] → [a]: element p of the vector is row p of the column. -/
theorem colAsVec_apply {a : Nat} (col : (⟨2, ![a, 1]⟩ : Shape).Idx → α)
    (h : (⟨2, ![a, 1]⟩ : Shape).ShapeCasts ⟨1, ![a]⟩) (p : Fin a) :
    shapeCast ⟨1, ![a]⟩ col h (ix1 p) = col (ix2 p (0 : Fin 1)) := by
  refine shapeCast_apply col h (ix1 p) (ix2 p (0 : Fin 1)) ?_
  rw [Shape.rowMajor_val_one, Shape.rowMajor_val_two]
  show p.val * 1 + 0 = p.val
  omega

/-- The unit-width slice of a matrix [a, b] at column offset o: row p of it is entry (p, o) of the matrix. -/
theorem sliceCol_apply {a b : Nat} (o : Nat) (X : (⟨2, ![a, b]⟩ : Shape).Idx → α)
    (h : (⟨2, ![a, b]⟩ : Shape).Slices ![0, o] ⟨2, ![a, 1]⟩) (p : Fin a) (q : Fin b) (hq : q.val = o) :
    extractStridedSlice ⟨2, ![a, 1]⟩ ![0, o] X h (ix2 p (0 : Fin 1)) = X (ix2 p q) :=
  extractStridedSlice_apply _ _ _ _ _ (fun ax => by
    match ax with
    | ⟨0, _⟩ => exact (Nat.zero_add _).symm
    | ⟨1, _⟩ => show q.val = o + 0; omega)

/-- Column o of a matrix as a vector: element p is entry (p, o). -/
theorem colVec_apply {a b : Nat} (o : Nat) (X : (⟨2, ![a, b]⟩ : Shape).Idx → α)
    (h : (⟨2, ![a, b]⟩ : Shape).Slices ![0, o] ⟨2, ![a, 1]⟩)
    (hc : (⟨2, ![a, 1]⟩ : Shape).ShapeCasts ⟨1, ![a]⟩) (p : Fin a) (q : Fin b) (hq : q.val = o) :
    shapeCast ⟨1, ![a]⟩ (extractStridedSlice ⟨2, ![a, 1]⟩ ![0, o] X h) hc (ix1 p) = X (ix2 p q) :=
  (colAsVec_apply _ hc p).trans (sliceCol_apply o X h p q hq)

/-- Columns joined side by side into a matrix [a, b]: entry (p, q) is row p of the piece at position q, when every
    piece before it has width one (the widths before position q sum to q). -/
theorem joinCols_apply {a b : Nat} (xs : List ((s : Shape) × (s.Idx → α)))
    (h : Shape.Concatenates (xs.map (·.1)) ⟨2, ![a, b]⟩ (1 : Fin 2)) (p : Fin a) (q : Fin b)
    (hk : q.val < xs.length) (col : (⟨2, ![a, 1]⟩ : Shape).Idx → α) (hxk : xs[q.val] = ⟨⟨2, ![a, 1]⟩, col⟩)
    (hpre : (((xs.take q.val).map (·.1)).map fun s =>
      if h : s.rank = (⟨2, ![a, b]⟩ : Shape).rank then s.size ((1 : Fin 2).cast h.symm) else 0).sum = q.val) :
    concatenate ⟨2, ![a, b]⟩ (1 : Fin 2) xs h (ix2 p q) = col (ix2 p (0 : Fin 1)) :=
  concatenate_apply_piece (1 : Fin 2) xs h (ix2 p q) q.val hk ⟨2, ![a, 1]⟩ col hxk rfl q.val hpre (ix2 p (0 : Fin 1))
    (fun d hd => match d with
      | ⟨0, _⟩ => rfl
      | ⟨1, _⟩ => absurd (Fin.ext rfl) hd)
    (by show q.val + 0 = q.val; omega)

/-- Slabs [a, 1, c] stacked along the middle axis into [a, b, c]: entry (p, q, r) is entry (p, 0, r) of the piece at
    position q, when every piece before it has thickness one. -/
theorem joinSlabs_apply {a b c : Nat} (xs : List ((s : Shape) × (s.Idx → α)))
    (h : Shape.Concatenates (xs.map (·.1)) ⟨3, ![a, b, c]⟩ (1 : Fin 3)) (p : Fin a) (q : Fin b) (r : Fin c)
    (hk : q.val < xs.length) (slab : (⟨3, ![a, 1, c]⟩ : Shape).Idx → α) (hxk : xs[q.val] = ⟨⟨3, ![a, 1, c]⟩, slab⟩)
    (hpre : (((xs.take q.val).map (·.1)).map fun s =>
      if h : s.rank = (⟨3, ![a, b, c]⟩ : Shape).rank then s.size ((1 : Fin 3).cast h.symm) else 0).sum = q.val) :
    concatenate ⟨3, ![a, b, c]⟩ (1 : Fin 3) xs h (ix3 p q r) = slab (ix3 p (0 : Fin 1) r) :=
  concatenate_apply_piece (1 : Fin 3) xs h (ix3 p q r) q.val hk ⟨3, ![a, 1, c]⟩ slab hxk rfl q.val hpre
    (ix3 p (0 : Fin 1) r)
    (fun d hd => match d with
      | ⟨0, _⟩ => rfl
      | ⟨1, _⟩ => absurd (Fin.ext rfl) hd
      | ⟨2, _⟩ => rfl)
    (by show q.val + 0 = q.val; omega)

end Cert.Lib.Columns

end
-- ==== Proof.LibJoinSix.lean ====
/-
  Six [R, 8] blocks joined side by side into an [R, 48] matrix, read at an entry: the entry in column 8k + c is entry
  (p, c) of block k. For any number of rows and any element type.
-/
import Idealize.ShloMosaic.Lib.Pipeline.Value
import Idealize.ShloMosaic.Lib.ValueIdx

noncomputable section

namespace Cert.Lib.JoinSix

open Idealize.ShloMosaic Idealize.ShloMosaic.ValueIdx

variable {α : Type} {R : Nat} (a0 a1 a2 a3 a4 a5 : (⟨2, ![R, 8]⟩ : Shape).Idx → α)
  (h : Shape.Concatenates [⟨2, ![R, 8]⟩, ⟨2, ![R, 8]⟩, ⟨2, ![R, 8]⟩, ⟨2, ![R, 8]⟩, ⟨2, ![R, 8]⟩, ⟨2, ![R, 8]⟩]
    ⟨2, ![R, 48]⟩ (1 : Fin 2))

/-- A column counter below 48 splits into a block number below 6 and a column below 8 within the block. -/
theorem split (q : Fin 48) : ∃ (k : Fin 6) (c : Fin 8), q.val = 8 * k.val + c.val :=
  ⟨⟨q.val / 8, by have := q.isLt; omega⟩, ⟨q.val % 8, Nat.mod_lt _ (by decide)⟩, by
    show q.val = 8 * (q.val / 8) + q.val % 8; omega⟩

/-- Entry (p, q) with q = 0 + c lies in block 0: it is that block's entry (p, c). -/
theorem block0_apply (p : Fin R) (c : Fin 8) (q : Fin 48) (hq : q.val = 0 + c.val) :
    concatenate ⟨2, ![R, 48]⟩ (1 : Fin 2)
        [⟨⟨2, ![R, 8]⟩, a0⟩, ⟨⟨2, ![R, 8]⟩, a1⟩, ⟨⟨2, ![R, 8]⟩, a2⟩, ⟨⟨2, ![R, 8]⟩, a3⟩, ⟨⟨2, ![R, 8]⟩, a4⟩,
          ⟨⟨2, ![R, 8]⟩, a5⟩] h (ix2 p q)
      = a0 (ix2 p c) :=
  concatenate_apply_piece (t := ⟨2, ![R, 48]⟩) (1 : Fin 2)
    ([⟨⟨2, ![R, 8]⟩, a0⟩, ⟨⟨2, ![R, 8]⟩, a1⟩, ⟨⟨2, ![R, 8]⟩, a2⟩, ⟨⟨2, ![R, 8]⟩, a3⟩, ⟨⟨2, ![R, 8]⟩, a4⟩,
          ⟨⟨2, ![R, 8]⟩, a5⟩] : List ((s : Shape) × (s.Idx → α))) h (ix2 p q) 0
    (by show (0 : Nat) < 6; omega) ⟨2, ![R, 8]⟩ a0 rfl rfl 0 rfl (ix2 p c)
    (fun d hd => match d with
      | ⟨0, _⟩ => rfl
      | ⟨1, _⟩ => absurd (Fin.ext rfl) hd)
    (by show 0 + c.val = q.val; omega)

/-- Entry (p, q) with q = 8 + c lies in block 1: it is that block's entry (p, c). -/
theorem block1_apply (p : Fin R) (c : Fin 8) (q : Fin 48) (hq : q.val = 8 + c.val) :
    concatenate ⟨2, ![R, 48]⟩ (1 : Fin 2)
        [⟨⟨2, ![R, 8]⟩, a0⟩, ⟨⟨2, ![R, 8]⟩, a1⟩, ⟨⟨2, ![R, 8]⟩, a2⟩, ⟨⟨2, ![R, 8]⟩, a3⟩, ⟨⟨2, ![R, 8]⟩, a4⟩,
          ⟨⟨2, ![R, 8]⟩, a5⟩] h (ix2 p q)
      = a1 (ix2 p c) :=
  concatenate_apply_piece (t := ⟨2, ![R, 48]⟩) (1 : Fin 2)
    ([⟨⟨2, ![R, 8]⟩, a0⟩, ⟨⟨2, ![R, 8]⟩, a1⟩, ⟨⟨2, ![R, 8]⟩, a2⟩, ⟨⟨2, ![R, 8]⟩, a3⟩, ⟨⟨2, ![R, 8]⟩, a4⟩,
          ⟨⟨2, ![R, 8]⟩, a5⟩] : List ((s : Shape) × (s.Idx → α))) h (ix2 p q) 1
    (by show (1 : Nat) < 6; omega) ⟨2, ![R, 8]⟩ a1 rfl rfl 8 rfl (ix2 p c)
    (fun d hd => match d with
      | ⟨0, _⟩ => rfl
      | ⟨1, _⟩ => absurd (Fin.ext rfl) hd)
    (by show 8 + c.val = q.val; omega)

/-- Entry (p, q) with q = 16 + c lies in block 2: it is that block's entry (p, c). -/
theorem block2_apply (p : Fin R) (c : Fin 8) (q : Fin 48) (hq : q.val = 16 + c.val) :
    concatenate ⟨2, ![R, 48]⟩ (1 : Fin 2)
        [⟨⟨2, ![R, 8]⟩, a0⟩, ⟨⟨2, ![R, 8]⟩, a1⟩, ⟨⟨2, ![R, 8]⟩, a2⟩, ⟨⟨2, ![R, 8]⟩, a3⟩, ⟨⟨2, ![R, 8]⟩, a4⟩,
          ⟨⟨2, ![R, 8]⟩, a5⟩] h (ix2 p q)
      = a2 (ix2 p c) :=
  concatenate_apply_piece (t := ⟨2, ![R, 48]⟩) (1 : Fin 2)
    ([⟨⟨2, ![R, 8]⟩, a0⟩, ⟨⟨2, ![R, 8]⟩, a1⟩, ⟨⟨2, ![R, 8]⟩, a2⟩, ⟨⟨2, ![R, 8]⟩, a3⟩, ⟨⟨2, ![R, 8]⟩, a4⟩,
          ⟨⟨2, ![R, 8]⟩, a5⟩] : List ((s : Shape) × (s.Idx → α))) h (ix2 p q) 2
    (by show (2 : Nat) < 6; omega) ⟨2, ![R, 8]⟩ a2 rfl rfl 16 rfl (ix2 p c)
    (fun d hd => match d with
      | ⟨0, _⟩ => rfl
      | ⟨1, _⟩ => absurd (Fin.ext rfl) hd)
    (by show 16 + c.val = q.val; omega)

/-- Entry (p, q) with q = 24 + c lies in block 3: it is that block's entry (p, c). -/
theorem block3_apply (p : Fin R) (c : Fin 8) (q : Fin 48) (hq : q.val = 24 + c.val) :
    concatenate ⟨2, ![R, 48]⟩ (1 : Fin 2)
        [⟨⟨2, ![R, 8]⟩, a0⟩, ⟨⟨2, ![R, 8]⟩, a1⟩, ⟨⟨2, ![R, 8]⟩, a2⟩, ⟨⟨2, ![R, 8]⟩, a3⟩, ⟨⟨2, ![R, 8]⟩, a4⟩,
          ⟨⟨2, ![R, 8]⟩, a5⟩] h (ix2 p q)
      = a3 (ix2 p c) :=
  concatenate_apply_piece (t := ⟨2, ![R, 48]⟩) (1 : Fin 2)
    ([⟨⟨2, ![R, 8]⟩, a0⟩, ⟨⟨2, ![R, 8]⟩, a1⟩, ⟨⟨2, ![R, 8]⟩, a2⟩, ⟨⟨2, ![R, 8]⟩, a3⟩, ⟨⟨2, ![R, 8]⟩, a4⟩,
          ⟨⟨2, ![R, 8]⟩, a5⟩] : List ((s : Shape) × (s.Idx → α))) h (ix2 p q) 3
    (by show (3 : Nat) < 6; omega) ⟨2, ![R, 8]⟩ a3 rfl rfl 24 rfl (ix2 p c)
    (fun d hd => match d with
      | ⟨0, _⟩ => rfl
      | ⟨1, _⟩ => absurd (Fin.ext rfl) hd)
    (by show 24 + c.val = q.val; omega)

/-- Entry (p, q) with q = 32 + c lies in block 4: it is that block's entry (p, c). -/
theorem block4_apply (p : Fin R) (c : Fin 8) (q : Fin 48) (hq : q.val = 32 + c.val) :
    concatenate ⟨2, ![R, 48]⟩ (1 : Fin 2)
        [⟨⟨2, ![R, 8]⟩, a0⟩, ⟨⟨2, ![R, 8]⟩, a1⟩, ⟨⟨2, ![R, 8]⟩, a2⟩, ⟨⟨2, ![R, 8]⟩, a3⟩, ⟨⟨2, ![R, 8]⟩, a4⟩,
          ⟨⟨2, ![R, 8]⟩, a5⟩] h (ix2 p q)
      = a4 (ix2 p c) :=
  concatenate_apply_piece (t := ⟨2, ![R, 48]⟩) (1 : Fin 2)
    ([⟨⟨2, ![R, 8]⟩, a0⟩, ⟨⟨2, ![R, 8]⟩, a1⟩, ⟨⟨2, ![R, 8]⟩, a2⟩, ⟨⟨2, ![R, 8]⟩, a3⟩, ⟨⟨2, ![R, 8]⟩, a4⟩,
          ⟨⟨2, ![R, 8]⟩, a5⟩] : List ((s : Shape) × (s.Idx → α))) h (ix2 p q) 4
    (by show (4 : Nat) < 6; omega) ⟨2, ![R, 8]⟩ a4 rfl rfl 32 rfl (ix2 p c)
    (fun d hd => match d with
      | ⟨0, _⟩ => rfl
      | ⟨1, _⟩ => absurd (Fin.ext rfl) hd)
    (by show 32 + c.val = q.val; omega)

/-- Entry (p, q) with q = 40 + c lies in block 5: it is that block's entry (p, c). -/
theorem block5_apply (p : Fin R) (c : Fin 8) (q : Fin 48) (hq : q.val = 40 + c.val) :
    concatenate ⟨2, ![R, 48]⟩ (1 : Fin 2)
        [⟨⟨2, ![R, 8]⟩, a0⟩, ⟨⟨2, ![R, 8]⟩, a1⟩, ⟨⟨2, ![R, 8]⟩, a2⟩, ⟨⟨2, ![R, 8]⟩, a3⟩, ⟨⟨2, ![R, 8]⟩, a4⟩,
          ⟨⟨2, ![R, 8]⟩, a5⟩] h (ix2 p q)
      = a5 (ix2 p c) :=
  concatenate_apply_piece (t := ⟨2, ![R, 48]⟩) (1 : Fin 2)
    ([⟨⟨2, ![R, 8]⟩, a0⟩, ⟨⟨2, ![R, 8]⟩, a1⟩, ⟨⟨2, ![R, 8]⟩, a2⟩, ⟨⟨2, ![R, 8]⟩, a3⟩, ⟨⟨2, ![R, 8]⟩, a4⟩,
          ⟨⟨2, ![R, 8]⟩, a5⟩] : List ((s : Shape) × (s.Idx → α))) h (ix2 p q) 5
    (by show (5 : Nat) < 6; omega) ⟨2, ![R, 8]⟩ a5 rfl rfl 40 rfl (ix2 p c)
    (fun d hd => match d with
      | ⟨0, _⟩ => rfl
      | ⟨1, _⟩ => absurd (Fin.ext rfl) hd)
    (by show 40 + c.val = q.val; omega)

end Cert.Lib.JoinSix

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibTwoHot.lean ====
/-
  Linear interpolation between two neighbouring rows of a table, written as a sum over all the rows.

  A row of weights that holds a at position I, b at position I + 1 and zero everywhere else, multiplied entry by
  entry with a column v of S values and summed, is a * v(I) + b * v(I + 1): every other term is zero times a value,
  which is zero in any structure where zero annihilates (on the extended reals too, where 0 * (+inf) = 0), so no
  finiteness of v is needed. The position I is a 32-bit word read as a signed integer; the lemmas here say when such a
  word names a row of the table: a word clamped between 0 and hi by signed max and min lies in [0, hi]; a
  non-negative word is left alone by the "add S if negative" wrap of numpy-style indexing; and a word in [0, S - 1]
  is left alone by the clamp into [0, S - 1] that a gather applies to its start index.
-/
import Idealize.ShloMosaic.PureOps.Ideal
import Idealize.ShloMosaic.Lib.ValueIdx

noncomputable section

open scoped BigOperators

namespace Cert.Lib.TwoHot

open Idealize.ShloMosaic Idealize.ShloMosaic.ValueIdx

/-- The row of a table of S rows that an index word selects: the word read signed, clamped into [0, S - 1]. -/
def row (S : Nat) (hS : 0 < S) (J : BitVec 32) : Fin S := ⟨min J.toInt.toNat (S - 1), by omega⟩

/-- A word clamped by signed max against 0 and signed min against hi lies between 0 and hi, whatever it was. -/
theorem clamp_bounds (hi z : BitVec 32) (h : 0 ≤ hi.toInt) :
    0 ≤ (IntOp.minsi hi (IntOp.maxsi 0#32 z)).toInt ∧ (IntOp.minsi hi (IntOp.maxsi 0#32 z)).toInt ≤ hi.toInt := by
  have h0 : (0#32 : BitVec 32).toInt = 0 := rfl
  unfold IntOp.minsi IntOp.maxsi
  by_cases hz : z.slt 0#32 = true
  · rw [if_pos hz]
    by_cases h1 : hi.slt 0#32 = true
    · rw [if_pos h1]; exact ⟨h, le_refl _⟩
    · rw [if_neg h1, h0]; exact ⟨le_refl _, h⟩
  · rw [if_neg hz]
    have hz' : ¬ z.toInt < 0 := by
      intro hlt; apply hz; simp only [BitVec.slt, decide_eq_true_eq, h0]; exact hlt
    by_cases h1 : hi.slt z = true
    · rw [if_pos h1]; exact ⟨h, le_refl _⟩
    · rw [if_neg h1]
      have h1' : ¬ hi.toInt < z.toInt := by
        intro hlt; apply h1; simp only [BitVec.slt, decide_eq_true_eq]; exact hlt
      omega

/-- A non-negative word read signed is its unsigned value, below 2^31. -/
theorem toNat_of_nonneg (J : BitVec 32) (h : 0 ≤ J.toInt) : J.toInt = (J.toNat : Int) ∧ J.toNat < 2 ^ 31 := by
  have hlt : J.toNat < 2 ^ 32 := J.isLt
  rw [BitVec.toInt_eq_toNat_cond] at h ⊢
  by_cases hc : 2 * J.toNat < 2 ^ 32
  · rw [if_pos hc]; exact ⟨rfl, by omega⟩
  · rw [if_neg hc] at h; omega

/-- The successor word of a non-negative word below 2^31 - 1 is the successor. -/
theorem succ_toInt (J : BitVec 32) (h0 : 0 ≤ J.toInt) (h1 : J.toInt + 1 < 2 ^ 31) :
    (IntOp.addi J 1#32).toInt = J.toInt + 1 := by
  obtain ⟨e, _⟩ := toNat_of_nonneg J h0
  have hn : (IntOp.addi J 1#32).toNat = J.toNat + 1 := by
    show (J + 1#32).toNat = _
    rw [BitVec.toNat_add]
    show (J.toNat + 1) % 2 ^ 32 = _
    omega
  rw [BitVec.toInt_eq_toNat_cond, hn, if_pos (by omega), e]
  push_cast; ring

/-- A selection on "the two words are equal" is the selection on their equality. -/
theorem select_cmpi_eq {α : Type} (x y : BitVec 32) (a b : α) :
    Scalar.select (IntOp.cmpi .eq x y) a b = if x = y then a else b := by
  unfold Scalar.select IntOp.cmpi
  by_cases h : x = y
  · subst h; simp
  · rw [if_neg h]
    have : (x == y) = false := by simpa using h
    simp [this]

/-- The numpy-style wrap "if the index is negative add the extent" leaves a non-negative index alone. -/
theorem wrap_nonneg (J Sw : BitVec 32) (h0 : 0 ≤ J.toInt) :
    Scalar.select (IntOp.cmpi .slt J 0#32) (IntOp.addi J Sw) J = J := by
  unfold Scalar.select IntOp.cmpi
  have h00 : (0#32 : BitVec 32).toInt = 0 := rfl
  have : J.slt 0#32 = false := by
    simp only [BitVec.slt, decide_eq_false_iff_not, h00]; omega
  simp [this]

/-- The position word of a row counter below S (itself below 2^31) equals a non-negative word exactly when the
    counter is the word's value. -/
theorem ofNat_eq_iff (S : Nat) (hS : S ≤ 2 ^ 31) (j : Fin S) (J : BitVec 32) (h0 : 0 ≤ J.toInt) :
    BitVec.ofNat 32 j.val = J ↔ j.val = J.toInt.toNat := by
  obtain ⟨e, hJ⟩ := toNat_of_nonneg J h0
  have hj : j.val < 2 ^ 32 := by have := j.isLt; omega
  have e' : J.toInt.toNat = J.toNat := by rw [e]; exact Int.toNat_natCast _
  rw [e']
  constructor
  · intro h
    have := congrArg BitVec.toNat h
    rw [BitVec.toNat_ofNat, Nat.mod_eq_of_lt hj] at this
    exact this
  · intro h
    apply BitVec.eq_of_toNat_eq
    rw [BitVec.toNat_ofNat, Nat.mod_eq_of_lt hj]
    exact h

/-- THE TWO-HOT SUM. Weights a at position I, b at position I + 1 and zero elsewhere, against a column v of S
    values: the sum of the products is a * v(I) + b * v(I + 1), in any additive commutative monoid with a
    multiplication in which zero times anything is zero. The positions are compared as 32-bit words, as a kernel's iota against a
    broadcast index is. -/
theorem twoHot_sum {M : Type} [AddCommMonoid M] [Mul M] (hzero : ∀ x : M, 0 * x = 0) (S : Nat) (hS : 0 < S)
    (hS' : S ≤ 2 ^ 31) (I : BitVec 32) (h0 : 0 ≤ I.toInt) (h1 : I.toInt + 1 < S) (a b : M) (v : Fin S → M) :
    ∑ j : Fin S, Scalar.select (IntOp.cmpi .eq (BitVec.ofNat 32 j.val) I) a
        (Scalar.select (IntOp.cmpi .eq (BitVec.ofNat 32 j.val) (IntOp.addi I 1#32)) b 0) * v j
      = a * v (row S hS I) + b * v (row S hS (IntOp.addi I 1#32)) := by
  have hs : (IntOp.addi I 1#32).toInt = I.toInt + 1 := succ_toInt I h0 (by omega)
  have hr0 : (row S hS I).val = I.toInt.toNat := by
    show min I.toInt.toNat (S - 1) = _
    omega
  have hr1 : (row S hS (IntOp.addi I 1#32)).val = I.toInt.toNat + 1 := by
    show min (IntOp.addi I 1#32).toInt.toNat (S - 1) = _
    rw [hs]; omega
  have hne : row S hS I ≠ row S hS (IntOp.addi I 1#32) := fun h => by
    have := congrArg Fin.val h; rw [hr0, hr1] at this; omega
  have hterm : ∀ j : Fin S, Scalar.select (IntOp.cmpi .eq (BitVec.ofNat 32 j.val) I) a
        (Scalar.select (IntOp.cmpi .eq (BitVec.ofNat 32 j.val) (IntOp.addi I 1#32)) b 0) * v j
      = (if j = row S hS I then a * v (row S hS I) else 0)
        + (if j = row S hS (IntOp.addi I 1#32) then b * v (row S hS (IntOp.addi I 1#32)) else 0) := by
    intro j
    rw [select_cmpi_eq, select_cmpi_eq]
    have e0 : BitVec.ofNat 32 j.val = I ↔ j = row S hS I := by
      rw [ofNat_eq_iff S hS' j I h0, Fin.ext_iff, hr0]
    have e1 : BitVec.ofNat 32 j.val = IntOp.addi I 1#32 ↔ j = row S hS (IntOp.addi I 1#32) := by
      rw [ofNat_eq_iff S hS' j _ (by rw [hs]; omega), Fin.ext_iff, hr1, hs]
      constructor <;> intro h <;> omega
    by_cases c0 : j = row S hS I
    · rw [if_pos (e0.mpr c0), if_pos c0, if_neg (fun h => hne (c0.symm.trans h)), add_zero, c0]
    · rw [if_neg (fun h => c0 (e0.mp h)), if_neg c0, zero_add]
      by_cases c1 : j = row S hS (IntOp.addi I 1#32)
      · rw [if_pos (e1.mpr c1), if_pos c1, c1]
      · rw [if_neg (fun h => c1 (e1.mp h)), if_neg c1, hzero]
  rw [Finset.sum_congr rfl (fun j _ => hterm j), Finset.sum_add_distrib]
  simp only [Finset.sum_ite_eq', Finset.mem_univ, if_true]

end Cert.Lib.TwoHot

end
-- ==== Proof.Interp.lean ====
/-
  One level of a multi-resolution table lookup, as a function of one coordinate.

  A coordinate t is confined to [0, 1] (clip), scaled to a position u * (S - 1) in a table of S rows (the scale is
  the float word lit), and split into a cell — the floor of the position as a 32-bit integer, confined to
  [0, S - 2] by a signed clamp (hi is the word of S - 2) — and the fraction left over. The level's value on a column
  v of the table is the linear interpolation v(cell) * (1 - frac) + v(cell + 1) * frac, on the extended reals.
  Whatever the position (and whatever the conversion to an integer answers for it), the clamp alone puts the cell
  in [0, hi], so both rows exist.
-/
import Idealize.ShloMosaic.PureOps.Ideal
import proofs.«139334_j30185030156575_2_alg».proof.Proof.LibTwoHot

noncomputable section

namespace Cert.Interp

open Idealize.ShloMosaic Cert.Lib

/-- The coordinate confined to [0, 1]. -/
def clip (t : EReal) : EReal :=
  min (Ideal.ofBits .f32 0x3F800000#32) (max (Ideal.ofBits .f32 0x00000000#32) t)

/-- The position in the table: the confined coordinate times the scale. -/
def posOf (lit : BitVec 32) (u : EReal) : EReal := u * Ideal.ofBits .f32 lit

/-- The cell: the floor of the position as a 32-bit integer, clamped (signed) into [0, hi]. -/
def cellOf (lit hi : BitVec 32) (u : EReal) : BitVec 32 :=
  IntOp.minsi hi (IntOp.maxsi 0#32
    (FloatOps.fptosi (F := Ideal) (φ := .f32) 32 (FloatOps.floor (F := Ideal) (φ := .f32) (posOf lit u))))

/-- The fraction: the position less the cell. -/
def fracOf (lit hi : BitVec 32) (u : EReal) : EReal :=
  posOf lit u - FloatOps.sitofp (F := Ideal) .f32 (cellOf lit hi u)

/-- THE LEVEL: the column's entry at the cell weighted 1 - frac plus its entry at the next cell weighted frac. -/
def lerpAt (S : Nat) (hS : 0 < S) (lit hi : BitVec 32) (u : EReal) (v : Fin S → EReal) : EReal :=
  v (TwoHot.row S hS (cellOf lit hi u)) * (Ideal.ofBits .f32 0x3F800000#32 - fracOf lit hi u)
    + v (TwoHot.row S hS (IntOp.addi (cellOf lit hi u) 1#32)) * fracOf lit hi u

/-- The cell lies in [0, hi]. -/
theorem cell_bounds (lit hi : BitVec 32) (h : 0 ≤ hi.toInt) (u : EReal) :
    0 ≤ (cellOf lit hi u).toInt ∧ (cellOf lit hi u).toInt ≤ hi.toInt :=
  TwoHot.clamp_bounds hi _ h

end Cert.Interp

end
-- ==== Proof.KernelLevel.lean ====
/-
  One level of the lookup as a kernel computes it: a dense two-hot weight matrix times the table.

  For a block of R coordinates and a table of S rows the kernel builds an [R, S] weight matrix — row p holds
  1 - frac at the column equal to the cell of coordinate p, frac at the next column, zero elsewhere (two selections
  on "the column counter equals the index word") — and multiplies it by the [S, 8] table. Entry (p, c) of the product
  is the sum over the table's rows j of weight(p, j) * table(j, c); all but two terms are zero times a value, so it
  is the level's interpolation of column c at coordinate p.
-/
import Idealize.ShloMosaic.PureOps.Ideal.Laws
import Idealize.ShloMosaic.Lib.Pipeline.Value
import Idealize.ShloMosaic.Lib.ValueIdx
import proofs.«139334_j30185030156575_2_alg».proof.Proof.LibKeepdims
import proofs.«139334_j30185030156575_2_alg».proof.Proof.LibMatmulPlain
import proofs.«139334_j30185030156575_2_alg».proof.Proof.Interp

noncomputable section

open scoped BigOperators

namespace Cert.KernelLevel

open Idealize.ShloMosaic Idealize.ShloMosaic.ValueIdx Cert.Lib Cert.Interp

/-- The weight matrix of one level, from the block's confined coordinates tc: the kernel's operations in its
    order (position, floor, integer cell clamped into [0, hi], fraction, the two column comparisons, the two
    selections). -/
def weight (R S : Nat) (lit hi : BitVec 32)
    (hio : (⟨2, ![R, S]⟩ : Shape).Iotas .tc 32 [1])
    (hc : (⟨1, ![R]⟩ : Shape).ShapeCasts ⟨2, ![R, 1]⟩)
    (hcc : (⟨2, ![R, 1]⟩ : Shape).ShapeCasts ⟨2, ![R, 1]⟩)
    (hb : (⟨2, ![R, 1]⟩ : Shape).Broadcasts ⟨2, ![R, S]⟩)
    (hss : (⟨2, ![R, S]⟩ : Shape).ShapeCasts ⟨2, ![R, S]⟩)
    (tc : FVec Ideal ⟨1, ![R]⟩ .f32) : FVec Ideal ⟨2, ![R, S]⟩ .f32 :=
  have pos : FVec Ideal ⟨1, ![R]⟩ .f32 := mulf tc (broadcast ⟨1, ![R]⟩ (Scalar.ofBits .f32 lit))
  have cell : IVec ⟨1, ![R]⟩ 32 :=
    minsi (broadcast ⟨1, ![R]⟩ hi) (maxsi (broadcast ⟨1, ![R]⟩ 0#32) (fptosi 32 (floor pos)))
  have frac : FVec Ideal ⟨1, ![R]⟩ .f32 := subf pos (sitofp .f32 cell)
  have cols : IVec ⟨2, ![R, S]⟩ 32 := iota .tc ⟨2, ![R, S]⟩ 32 [1] hio
  have cellc : IVec ⟨2, ![R, 1]⟩ 32 := shapeCast ⟨2, ![R, 1]⟩ cell hc
  have rest : FVec Ideal ⟨1, ![R]⟩ .f32 := subf (broadcast ⟨1, ![R]⟩ (Scalar.ofBits .f32 0x3F800000#32)) frac
  have restc : FVec Ideal ⟨2, ![R, 1]⟩ .f32 := shapeCast ⟨2, ![R, 1]⟩ rest hc
  have fracc : FVec Ideal ⟨2, ![R, 1]⟩ .f32 := shapeCast ⟨2, ![R, 1]⟩ frac hc
  have atCell : IVec ⟨2, ![R, S]⟩ 1 := cmpi .eq cols (broadcastTo ⟨2, ![R, S]⟩ cellc hb)
  have atNext : IVec ⟨2, ![R, S]⟩ 1 :=
    cmpi .eq cols (broadcastTo ⟨2, ![R, S]⟩ (addi cellc (broadcast ⟨2, ![R, 1]⟩ 1#32)) hb)
  have next : FVec Ideal ⟨2, ![R, S]⟩ .f32 :=
    select atNext (broadcastTo ⟨2, ![R, S]⟩ (shapeCast ⟨2, ![R, 1]⟩ fracc hcc) hb)
      (broadcast ⟨2, ![R, S]⟩ (Scalar.ofBits .f32 0x00000000#32))
  shapeCast ⟨2, ![R, S]⟩
    (select atCell (broadcastTo ⟨2, ![R, S]⟩ (shapeCast ⟨2, ![R, 1]⟩ restc hcc) hb) next) hss

variable {R S : Nat} (lit hi : BitVec 32)
  (hio : (⟨2, ![R, S]⟩ : Shape).Iotas .tc 32 [1])
  (hc : (⟨1, ![R]⟩ : Shape).ShapeCasts ⟨2, ![R, 1]⟩)
  (hcc : (⟨2, ![R, 1]⟩ : Shape).ShapeCasts ⟨2, ![R, 1]⟩)
  (hb : (⟨2, ![R, 1]⟩ : Shape).Broadcasts ⟨2, ![R, S]⟩)
  (hss : (⟨2, ![R, S]⟩ : Shape).ShapeCasts ⟨2, ![R, S]⟩)
  (tc : FVec Ideal ⟨1, ![R]⟩ .f32)

/-- Entry (p, j) of the weight matrix: 1 - frac where the column counter j equals the cell of coordinate p, frac
    where it equals the next cell, zero elsewhere. -/
theorem weight_apply (p : Fin R) (j : Fin S) :
    weight R S lit hi hio hc hcc hb hss tc (ix2 p j)
      = Scalar.select (IntOp.cmpi .eq (BitVec.ofNat 32 j.val) (cellOf lit hi (tc (ix1 p))))
          (Ideal.ofBits .f32 0x3F800000#32 - fracOf lit hi (tc (ix1 p)))
          (Scalar.select
            (IntOp.cmpi .eq (BitVec.ofNat 32 j.val) (IntOp.addi (cellOf lit hi (tc (ix1 p))) 1#32))
            (fracOf lit hi (tc (ix1 p))) (Ideal.ofBits .f32 0x00000000#32)) := by
  unfold weight
  rw [shapeCast_self]
  show Scalar.select (IntOp.cmpi .eq (iota .tc ⟨2, ![R, S]⟩ 32 [1] hio (ix2 p j))
      (broadcastTo ⟨2, ![R, S]⟩ (shapeCast ⟨2, ![R, 1]⟩ _ hc) hb (ix2 p j)))
    (broadcastTo ⟨2, ![R, S]⟩ (shapeCast ⟨2, ![R, 1]⟩ (shapeCast ⟨2, ![R, 1]⟩ _ hc) hcc) hb (ix2 p j))
    (Scalar.select (IntOp.cmpi .eq (iota .tc ⟨2, ![R, S]⟩ 32 [1] hio (ix2 p j))
        (broadcastTo ⟨2, ![R, S]⟩ (addi (shapeCast ⟨2, ![R, 1]⟩ _ hc) (broadcast ⟨2, ![R, 1]⟩ 1#32)) hb (ix2 p j)))
      (broadcastTo ⟨2, ![R, S]⟩ (shapeCast ⟨2, ![R, 1]⟩ (shapeCast ⟨2, ![R, 1]⟩ _ hc) hcc) hb (ix2 p j))
      (Scalar.ofBits (F := Ideal) .f32 0x00000000#32)) = _
  rw [iota_single_apply, Keepdims.bcastCol_apply, Keepdims.bcastCol_apply, Keepdims.bcastCol_apply,
    Keepdims.bcastCol_apply, shapeCast_self, shapeCast_self]
  show Scalar.select (IntOp.cmpi .eq _ (shapeCast ⟨2, ![R, 1]⟩ _ hc (ix2 p (0 : Fin 1))))
    (shapeCast ⟨2, ![R, 1]⟩ _ hc (ix2 p (0 : Fin 1)))
    (Scalar.select (IntOp.cmpi .eq _
        (IntOp.addi (shapeCast ⟨2, ![R, 1]⟩ _ hc (ix2 p (0 : Fin 1))) 1#32))
      (shapeCast ⟨2, ![R, 1]⟩ _ hc (ix2 p (0 : Fin 1))) _) = _
  rw [Keepdims.castCol_apply, Keepdims.castCol_apply, Keepdims.castCol_apply]
  rfl

/-- ENTRY (p, c) OF THE LEVEL'S PRODUCT: the interpolation of the table's column c at coordinate p. -/
theorem level_apply (hS : 0 < S) (hS' : S ≤ 2 ^ 31) (hhi0 : 0 ≤ hi.toInt) (hhi : hi.toInt + 1 < S)
    (wf : DotDims.WF ⟨2, ![R, S]⟩ ⟨2, ![S, 8]⟩ ⟨2, ![R, 8]⟩ [1] [0] [0] [1] [] [])
    (prec : Option ContractPrecision) (vol : FVec Ideal ⟨2, ![S, 8]⟩ .f32) (p : Fin R) (c : Fin 8) :
    FloatOps.matmul (LibMatmulPlain.plainDims R S 8 wf) prec (weight R S lit hi hio hc hcc hb hss tc) vol
        (constant ⟨2, ![R, 8]⟩ .f32 0x00000000#32) (ix2 p c)
      = lerpAt S hS lit hi (tc (ix1 p)) (fun j => vol (ix2 j c)) := by
  rw [LibMatmulPlain.matmul_zero_apply wf prec _ vol p c,
    Finset.sum_congr rfl (fun j _ => by rw [weight_apply lit hi hio hc hcc hb hss tc p j]),
    Ideal.ofBits_zero_f32]
  obtain ⟨b0, b1⟩ := cell_bounds lit hi hhi0 (tc (ix1 p))
  refine (TwoHot.twoHot_sum (fun x : EReal => zero_mul x) S hS hS' (cellOf lit hi (tc (ix1 p))) b0 (by omega)
    _ _ (fun j => vol (ix2 j c))).trans ?_
  unfold lerpAt
  rw [mul_comm, mul_comm (fracOf lit hi (tc (ix1 p)))]

end Cert.KernelLevel

end
-- ==== Proof.KernelBlock.lean ====
/-
  What one grid point leaves in the output block, as a function of the blocks it loads.

  The body runs six levels; each builds its weight matrix, stores it in the first S columns of a scratch buffer,
  loads those columns back and multiplies by the level's table; the six [2000, 8] products are joined into the
  [2000, 48] output block. A load through the rectangle just stored reads what was stored, whatever the scratch held
  before, so the block is the join of the six products of weight matrix and table, and column 8k + c of row p is
  level k's interpolation of channel c at the block's coordinate p.
-/
import proofs.«139334_j30185030156575_2_alg».proof.Proof.Gen.KernelIdeal.Frame
import Idealize.ShloMosaic.Lib.Pipeline.Value
import Idealize.ShloMosaic.Lib.ValueIdx
import proofs.«139334_j30185030156575_2_alg».proof.Proof.LibColumns
import proofs.«139334_j30185030156575_2_alg».proof.Proof.LibJoinSix
import proofs.«139334_j30185030156575_2_alg».proof.Proof.KernelLevel

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem
open Idealize.ShloMosaic.ValueIdx Cert.Lib Cert.Interp

/-- The output block from the loaded blocks: the body's payloads composed, each scratch round trip removed. -/
def block (x0 : Vec Ideal S2000x1 .f32) (x1 : Vec Ideal S8x8 .f32) (x2 : Vec Ideal S16x8 .f32) (x3 : Vec Ideal S32x8 .f32) (x4 : Vec Ideal S64x8 .f32) (x5 : Vec Ideal S128x8 .f32) (x6 : Vec Ideal S256x8 .f32) : FVec Ideal S2000x48 .f32 :=
  k0_pay1 (F := Ideal) (k0_pay4 (F := Ideal) (k0_pay3 x0) x1) (k0_pay6 (F := Ideal) (k0_pay5 (k0_pay2 x0)) x2)
    (k0_pay10 (F := Ideal) (k0_pay9 (k0_pay7 (k0_pay2 x0)) (k0_pay8 (k0_pay2 x0))) x3)
    (k0_pay19 (F := Ideal) (k0_pay18 (iota Kind.tc S2000x64 32 [1] iota_S2000x64_d1_w32) (k0_pay14 (k0_pay2 x0)) (k0_pay15 (k0_pay2 x0)) (k0_pay16 (k0_pay2 x0)) (k0_pay17 (k0_pay2 x0))) x4)
    (k0_pay28 (F := Ideal) (k0_pay27 (k0_pay24 (k0_pay2 x0)) (k0_pay25 (k0_pay2 x0)) (k0_pay26 (k0_pay2 x0))) x5)
    (k0_pay29 (k0_pay2 x0)) x6

theorem zeroOffsets : (![0, 0] : Fin 2 → Nat) = fun _ => 0 := funext fun a => by fin_cases a <;> rfl

/-- WHAT THE RUN LEAVES IN THE OUTPUT BLOCK is that function of the loaded blocks. -/
theorem out_eq (c : Dev nD) (i : grid0.Coords) (arg1 : Memref sig .tc .vmem S2000x1 .f32) (harg1 : arg1.IsWhole) (arg2 : Memref sig .tc .vmem S8x8 .f32) (harg2 : arg2.IsWhole) (arg3 : Memref sig .tc .vmem S16x8 .f32) (harg3 : arg3.IsWhole) (arg4 : Memref sig .tc .vmem S32x8 .f32) (harg4 : arg4.IsWhole) (arg5 : Memref sig .tc .vmem S64x8 .f32) (harg5 : arg5.IsWhole) (arg6 : Memref sig .tc .vmem S128x8 .f32) (harg6 : arg6.IsWhole) (arg7 : Memref sig .tc .vmem S256x8 .f32) (harg7 : arg7.IsWhole) (arg8 : Memref sig .tc .vmem S2000x48 .f32) (harg8 : arg8.IsWhole) (arg9 : Memref sig .tc .vmem S2000x256 .f32) (harg9 : arg9.IsWhole)
    (x0 : Vec Ideal S2000x1 .f32) (x1 : Vec Ideal S8x8 .f32) (x2 : Vec Ideal S16x8 .f32) (x3 : Vec Ideal S32x8 .f32) (x4 : Vec Ideal S64x8 .f32) (x5 : Vec Ideal S128x8 .f32) (x6 : Vec Ideal S256x8 .f32) :
    out0_A_7 (F := Ideal) c i arg1 harg1 arg2 harg2 arg3 harg3 arg4 harg4 arg5 harg5 arg6 harg6 arg7 harg7 arg8 harg8
        arg9 harg9 x0 x1 x2 x3 x4 x5 x6
      = block x0 x1 x2 x3 x4 x5 x6 := by
  unfold out0_A_7
  rw [View.read_writes_eq_canon _ _ _ (cover0_A_7 c i arg1 harg1 arg2 harg2 arg3 harg3 arg4 harg4 arg5 harg5 arg6 harg6
    arg7 harg7 arg8 harg8 arg9 harg9 x0 x1 x2 x3 x4 x5 x6)]
  unfold kernelRun0_A
  dsimp only
  sl_unfold_words
  rw [View.canon_unit_zero zeroOffsets]
  simp only [View.readCov_cons_toLoadRect, View.readAt_eq_ld, harg1.read_unread, harg2.read_unread,
    harg3.read_unread, harg4.read_unread, harg5.read_unread, harg6.read_unread, harg7.read_unread,
    View.ld_unit_zero (S := S2000x1) zeroOffsets, View.ld_unit_zero (S := S8x8) zeroOffsets,
    View.ld_unit_zero (S := S16x8) zeroOffsets, View.ld_unit_zero (S := S32x8) zeroOffsets,
    View.ld_unit_zero (S := S64x8) zeroOffsets, View.ld_unit_zero (S := S128x8) zeroOffsets,
    View.ld_unit_zero (S := S256x8) zeroOffsets]
  rfl

/-- The block's confined coordinates: entry p is the loaded coordinate p confined to [0, 1]. -/
theorem tc_apply (x0 : Vec Ideal S2000x1 .f32) (p : Fin 2000) :
    k0_pay2 (F := Ideal) x0 (ix1 p) = clip (x0 (ix2 p (0 : Fin 1))) := by
  show min (Scalar.ofBits (F := Ideal) .f32 0x3F800000#32)
      (max (Scalar.ofBits (F := Ideal) .f32 0x00000000#32) (shapeCast S2000 x0 shapeCasts_S2000x1_S2000 (ix1 p))) = _
  rw [Columns.colAsVec_apply]
  rfl

/-- Level 0 of the block (table of 8 rows) at entry (p, c): the payloads are the level's weight matrix times the
    table, hence the level's interpolation of channel c at the block's coordinate p. -/
theorem lvl0_apply (x0 : Vec Ideal S2000x1 .f32) (x1 : Vec Ideal S8x8 .f32) (p : Fin 2000) (c : Fin 8) :
    (k0_pay4 (F := Ideal) (k0_pay3 x0) x1 : FVec Ideal S2000x8 .f32) (ix2 p c)
      = lerpAt 8 (by decide) 0x40E00000#32 6#32 (clip (x0 (ix2 p (0 : Fin 1)))) (fun j => x1 (ix2 j c)) := by
  have e : (k0_pay4 (F := Ideal) (k0_pay3 x0) x1 : FVec Ideal S2000x8 .f32)
      = FloatOps.matmul (LibMatmulPlain.plainDims 2000 8 8 dot_S2000x8_S8x8_S2000x8_1_0_0_1_n_n.wf) (some .fp32)
          (KernelLevel.weight 2000 8 0x40E00000#32 6#32 iota_S2000x8_d1_w32 shapeCasts_S2000_S2000x1
            shapeCasts_S2000x1_S2000x1 broadcasts_S2000x1_S2000x8 shapeCasts_S2000x8_S2000x8 (k0_pay2 x0))
          x1 (constant ⟨2, ![2000, 8]⟩ .f32 0x00000000#32) := rfl
  rw [e, KernelLevel.level_apply 0x40E00000#32 6#32 iota_S2000x8_d1_w32 shapeCasts_S2000_S2000x1
    shapeCasts_S2000x1_S2000x1 broadcasts_S2000x1_S2000x8 shapeCasts_S2000x8_S2000x8 (k0_pay2 x0) (by decide)
    (by decide) (by decide) (by decide) dot_S2000x8_S8x8_S2000x8_1_0_0_1_n_n.wf (some .fp32) x1 p c, tc_apply]

/-- Level 1 of the block (table of 16 rows) at entry (p, c): the payloads are the level's weight matrix times the
    table, hence the level's interpolation of channel c at the block's coordinate p. -/
theorem lvl1_apply (x0 : Vec Ideal S2000x1 .f32) (x2 : Vec Ideal S16x8 .f32) (p : Fin 2000) (c : Fin 8) :
    (k0_pay6 (F := Ideal) (k0_pay5 (k0_pay2 x0)) x2 : FVec Ideal S2000x8 .f32) (ix2 p c)
      = lerpAt 16 (by decide) 0x41700000#32 14#32 (clip (x0 (ix2 p (0 : Fin 1)))) (fun j => x2 (ix2 j c)) := by
  have e : (k0_pay6 (F := Ideal) (k0_pay5 (k0_pay2 x0)) x2 : FVec Ideal S2000x8 .f32)
      = FloatOps.matmul (LibMatmulPlain.plainDims 2000 16 8 dot_S2000x16_S16x8_S2000x8_1_0_0_1_n_n.wf) (some .fp32)
          (KernelLevel.weight 2000 16 0x41700000#32 14#32 iota_S2000x16_d1_w32 shapeCasts_S2000_S2000x1
            shapeCasts_S2000x1_S2000x1 broadcasts_S2000x1_S2000x16 shapeCasts_S2000x16_S2000x16 (k0_pay2 x0))
          x2 (constant ⟨2, ![2000, 8]⟩ .f32 0x00000000#32) := rfl
  rw [e, KernelLevel.level_apply 0x41700000#32 14#32 iota_S2000x16_d1_w32 shapeCasts_S2000_S2000x1
    shapeCasts_S2000x1_S2000x1 broadcasts_S2000x1_S2000x16 shapeCasts_S2000x16_S2000x16 (k0_pay2 x0) (by decide)
    (by decide) (by decide) (by decide) dot_S2000x16_S16x8_S2000x8_1_0_0_1_n_n.wf (some .fp32) x2 p c, tc_apply]

/-- Level 2 of the block (table of 32 rows) at entry (p, c): the payloads are the level's weight matrix times the
    table, hence the level's interpolation of channel c at the block's coordinate p. -/
theorem lvl2_apply (x0 : Vec Ideal S2000x1 .f32) (x3 : Vec Ideal S32x8 .f32) (p : Fin 2000) (c : Fin 8) :
    (k0_pay10 (F := Ideal) (k0_pay9 (k0_pay7 (k0_pay2 x0)) (k0_pay8 (k0_pay2 x0))) x3 : FVec Ideal S2000x8 .f32) (ix2 p c)
      = lerpAt 32 (by decide) 0x41F80000#32 30#32 (clip (x0 (ix2 p (0 : Fin 1)))) (fun j => x3 (ix2 j c)) := by
  have e : (k0_pay10 (F := Ideal) (k0_pay9 (k0_pay7 (k0_pay2 x0)) (k0_pay8 (k0_pay2 x0))) x3 : FVec Ideal S2000x8 .f32)
      = FloatOps.matmul (LibMatmulPlain.plainDims 2000 32 8 dot_S2000x32_S32x8_S2000x8_1_0_0_1_n_n.wf) (some .fp32)
          (KernelLevel.weight 2000 32 0x41F80000#32 30#32 iota_S2000x32_d1_w32 shapeCasts_S2000_S2000x1
            shapeCasts_S2000x1_S2000x1 broadcasts_S2000x1_S2000x32 shapeCasts_S2000x32_S2000x32 (k0_pay2 x0))
          x3 (constant ⟨2, ![2000, 8]⟩ .f32 0x00000000#32) := rfl
  rw [e, KernelLevel.level_apply 0x41F80000#32 30#32 iota_S2000x32_d1_w32 shapeCasts_S2000_S2000x1
    shapeCasts_S2000x1_S2000x1 broadcasts_S2000x1_S2000x32 shapeCasts_S2000x32_S2000x32 (k0_pay2 x0) (by decide)
    (by decide) (by decide) (by decide) dot_S2000x32_S32x8_S2000x8_1_0_0_1_n_n.wf (some .fp32) x3 p c, tc_apply]

/-- Level 3 of the block (table of 64 rows) at entry (p, c): the payloads are the level's weight matrix times the
    table, hence the level's interpolation of channel c at the block's coordinate p. -/
theorem lvl3_apply (x0 : Vec Ideal S2000x1 .f32) (x4 : Vec Ideal S64x8 .f32) (p : Fin 2000) (c : Fin 8) :
    (k0_pay19 (F := Ideal) (k0_pay18 (iota Kind.tc S2000x64 32 [1] iota_S2000x64_d1_w32) (k0_pay14 (k0_pay2 x0)) (k0_pay15 (k0_pay2 x0)) (k0_pay16 (k0_pay2 x0)) (k0_pay17 (k0_pay2 x0))) x4 : FVec Ideal S2000x8 .f32) (ix2 p c)
      = lerpAt 64 (by decide) 0x427C0000#32 62#32 (clip (x0 (ix2 p (0 : Fin 1)))) (fun j => x4 (ix2 j c)) := by
  have e : (k0_pay19 (F := Ideal) (k0_pay18 (iota Kind.tc S2000x64 32 [1] iota_S2000x64_d1_w32) (k0_pay14 (k0_pay2 x0)) (k0_pay15 (k0_pay2 x0)) (k0_pay16 (k0_pay2 x0)) (k0_pay17 (k0_pay2 x0))) x4 : FVec Ideal S2000x8 .f32)
      = FloatOps.matmul (LibMatmulPlain.plainDims 2000 64 8 dot_S2000x64_S64x8_S2000x8_1_0_0_1_n_n.wf) (some .fp32)
          (KernelLevel.weight 2000 64 0x427C0000#32 62#32 iota_S2000x64_d1_w32 shapeCasts_S2000_S2000x1
            shapeCasts_S2000x1_S2000x1 broadcasts_S2000x1_S2000x64 shapeCasts_S2000x64_S2000x64 (k0_pay2 x0))
          x4 (constant ⟨2, ![2000, 8]⟩ .f32 0x00000000#32) := rfl
  rw [e, KernelLevel.level_apply 0x427C0000#32 62#32 iota_S2000x64_d1_w32 shapeCasts_S2000_S2000x1
    shapeCasts_S2000x1_S2000x1 broadcasts_S2000x1_S2000x64 shapeCasts_S2000x64_S2000x64 (k0_pay2 x0) (by decide)
    (by decide) (by decide) (by decide) dot_S2000x64_S64x8_S2000x8_1_0_0_1_n_n.wf (some .fp32) x4 p c, tc_apply]

/-- Level 4 of the block (table of 128 rows) at entry (p, c): the payloads are the level's weight matrix times the
    table, hence the level's interpolation of channel c at the block's coordinate p. -/
theorem lvl4_apply (x0 : Vec Ideal S2000x1 .f32) (x5 : Vec Ideal S128x8 .f32) (p : Fin 2000) (c : Fin 8) :
    (k0_pay28 (F := Ideal) (k0_pay27 (k0_pay24 (k0_pay2 x0)) (k0_pay25 (k0_pay2 x0)) (k0_pay26 (k0_pay2 x0))) x5 : FVec Ideal S2000x8 .f32) (ix2 p c)
      = lerpAt 128 (by decide) 0x42FE0000#32 126#32 (clip (x0 (ix2 p (0 : Fin 1)))) (fun j => x5 (ix2 j c)) := by
  have e : (k0_pay28 (F := Ideal) (k0_pay27 (k0_pay24 (k0_pay2 x0)) (k0_pay25 (k0_pay2 x0)) (k0_pay26 (k0_pay2 x0))) x5 : FVec Ideal S2000x8 .f32)
      = FloatOps.matmul (LibMatmulPlain.plainDims 2000 128 8 dot_S2000x128_S128x8_S2000x8_1_0_0_1_n_n.wf) (some .fp32)
          (KernelLevel.weight 2000 128 0x42FE0000#32 126#32 iota_S2000x128_d1_w32 shapeCasts_S2000_S2000x1
            shapeCasts_S2000x1_S2000x1 broadcasts_S2000x1_S2000x128 shapeCasts_S2000x128_S2000x128 (k0_pay2 x0))
          x5 (constant ⟨2, ![2000, 8]⟩ .f32 0x00000000#32) := rfl
  rw [e, KernelLevel.level_apply 0x42FE0000#32 126#32 iota_S2000x128_d1_w32 shapeCasts_S2000_S2000x1
    shapeCasts_S2000x1_S2000x1 broadcasts_S2000x1_S2000x128 shapeCasts_S2000x128_S2000x128 (k0_pay2 x0) (by decide)
    (by decide) (by decide) (by decide) dot_S2000x128_S128x8_S2000x8_1_0_0_1_n_n.wf (some .fp32) x5 p c, tc_apply]

/-- Level 5 of the block (table of 256 rows) at entry (p, c): the payloads are the level's weight matrix times the
    table, hence the level's interpolation of channel c at the block's coordinate p. -/
theorem lvl5_apply (x0 : Vec Ideal S2000x1 .f32) (x6 : Vec Ideal S256x8 .f32) (p : Fin 2000) (c : Fin 8) :
    (FloatOps.matmul (F := Ideal) (φ₁ := .f32) (φ₂ := .f32) dot_S2000x256_S256x8_S2000x8_1_0_0_1_n_n (some .fp32) (k0_pay29 (k0_pay2 x0)) x6 (constant S2000x8 .f32 0x00000000#32) : FVec Ideal S2000x8 .f32) (ix2 p c)
      = lerpAt 256 (by decide) 0x437F0000#32 254#32 (clip (x0 (ix2 p (0 : Fin 1)))) (fun j => x6 (ix2 j c)) := by
  have e : (FloatOps.matmul (F := Ideal) (φ₁ := .f32) (φ₂ := .f32) dot_S2000x256_S256x8_S2000x8_1_0_0_1_n_n (some .fp32) (k0_pay29 (k0_pay2 x0)) x6 (constant S2000x8 .f32 0x00000000#32) : FVec Ideal S2000x8 .f32)
      = FloatOps.matmul (LibMatmulPlain.plainDims 2000 256 8 dot_S2000x256_S256x8_S2000x8_1_0_0_1_n_n.wf) (some .fp32)
          (KernelLevel.weight 2000 256 0x437F0000#32 254#32 iota_S2000x256_d1_w32 shapeCasts_S2000_S2000x1
            shapeCasts_S2000x1_S2000x1 broadcasts_S2000x1_S2000x256 shapeCasts_S2000x256_S2000x256 (k0_pay2 x0))
          x6 (constant ⟨2, ![2000, 8]⟩ .f32 0x00000000#32) := rfl
  rw [e, KernelLevel.level_apply 0x437F0000#32 254#32 iota_S2000x256_d1_w32 shapeCasts_S2000_S2000x1
    shapeCasts_S2000x1_S2000x1 broadcasts_S2000x1_S2000x256 shapeCasts_S2000x256_S2000x256 (k0_pay2 x0) (by decide)
    (by decide) (by decide) (by decide) dot_S2000x256_S256x8_S2000x8_1_0_0_1_n_n.wf (some .fp32) x6 p c, tc_apply]

/-- Columns 0 to 7 of the block are level 0. -/
theorem block_cols0 (x0 : Vec Ideal S2000x1 .f32) (x1 : Vec Ideal S8x8 .f32) (x2 : Vec Ideal S16x8 .f32) (x3 : Vec Ideal S32x8 .f32) (x4 : Vec Ideal S64x8 .f32) (x5 : Vec Ideal S128x8 .f32) (x6 : Vec Ideal S256x8 .f32) (p : Fin 2000) (c : Fin 8) (q : Fin 48) (hq : q.val = 0 + c.val) :
    block x0 x1 x2 x3 x4 x5 x6 (ix2 p q)
      = lerpAt 8 (by decide) 0x40E00000#32 6#32 (clip (x0 (ix2 p (0 : Fin 1)))) (fun j => x1 (ix2 j c)) := by
  unfold block k0_pay1
  exact (JoinSix.block0_apply _ _ _ _ _ _ _ p c q hq).trans (lvl0_apply x0 x1 p c)

/-- Columns 8 to 15 of the block are level 1. -/
theorem block_cols1 (x0 : Vec Ideal S2000x1 .f32) (x1 : Vec Ideal S8x8 .f32) (x2 : Vec Ideal S16x8 .f32) (x3 : Vec Ideal S32x8 .f32) (x4 : Vec Ideal S64x8 .f32) (x5 : Vec Ideal S128x8 .f32) (x6 : Vec Ideal S256x8 .f32) (p : Fin 2000) (c : Fin 8) (q : Fin 48) (hq : q.val = 8 + c.val) :
    block x0 x1 x2 x3 x4 x5 x6 (ix2 p q)
      = lerpAt 16 (by decide) 0x41700000#32 14#32 (clip (x0 (ix2 p (0 : Fin 1)))) (fun j => x2 (ix2 j c)) := by
  unfold block k0_pay1
  exact (JoinSix.block1_apply _ _ _ _ _ _ _ p c q hq).trans (lvl1_apply x0 x2 p c)

/-- Columns 16 to 23 of the block are level 2. -/
theorem block_cols2 (x0 : Vec Ideal S2000x1 .f32) (x1 : Vec Ideal S8x8 .f32) (x2 : Vec Ideal S16x8 .f32) (x3 : Vec Ideal S32x8 .f32) (x4 : Vec Ideal S64x8 .f32) (x5 : Vec Ideal S128x8 .f32) (x6 : Vec Ideal S256x8 .f32) (p : Fin 2000) (c : Fin 8) (q : Fin 48) (hq : q.val = 16 + c.val) :
    block x0 x1 x2 x3 x4 x5 x6 (ix2 p q)
      = lerpAt 32 (by decide) 0x41F80000#32 30#32 (clip (x0 (ix2 p (0 : Fin 1)))) (fun j => x3 (ix2 j c)) := by
  unfold block k0_pay1
  exact (JoinSix.block2_apply _ _ _ _ _ _ _ p c q hq).trans (lvl2_apply x0 x3 p c)

/-- Columns 24 to 31 of the block are level 3. -/
theorem block_cols3 (x0 : Vec Ideal S2000x1 .f32) (x1 : Vec Ideal S8x8 .f32) (x2 : Vec Ideal S16x8 .f32) (x3 : Vec Ideal S32x8 .f32) (x4 : Vec Ideal S64x8 .f32) (x5 : Vec Ideal S128x8 .f32) (x6 : Vec Ideal S256x8 .f32) (p : Fin 2000) (c : Fin 8) (q : Fin 48) (hq : q.val = 24 + c.val) :
    block x0 x1 x2 x3 x4 x5 x6 (ix2 p q)
      = lerpAt 64 (by decide) 0x427C0000#32 62#32 (clip (x0 (ix2 p (0 : Fin 1)))) (fun j => x4 (ix2 j c)) := by
  unfold block k0_pay1
  exact (JoinSix.block3_apply _ _ _ _ _ _ _ p c q hq).trans (lvl3_apply x0 x4 p c)

/-- Columns 32 to 39 of the block are level 4. -/
theorem block_cols4 (x0 : Vec Ideal S2000x1 .f32) (x1 : Vec Ideal S8x8 .f32) (x2 : Vec Ideal S16x8 .f32) (x3 : Vec Ideal S32x8 .f32) (x4 : Vec Ideal S64x8 .f32) (x5 : Vec Ideal S128x8 .f32) (x6 : Vec Ideal S256x8 .f32) (p : Fin 2000) (c : Fin 8) (q : Fin 48) (hq : q.val = 32 + c.val) :
    block x0 x1 x2 x3 x4 x5 x6 (ix2 p q)
      = lerpAt 128 (by decide) 0x42FE0000#32 126#32 (clip (x0 (ix2 p (0 : Fin 1)))) (fun j => x5 (ix2 j c)) := by
  unfold block k0_pay1
  exact (JoinSix.block4_apply _ _ _ _ _ _ _ p c q hq).trans (lvl4_apply x0 x5 p c)

/-- Columns 40 to 47 of the block are level 5. -/
theorem block_cols5 (x0 : Vec Ideal S2000x1 .f32) (x1 : Vec Ideal S8x8 .f32) (x2 : Vec Ideal S16x8 .f32) (x3 : Vec Ideal S32x8 .f32) (x4 : Vec Ideal S64x8 .f32) (x5 : Vec Ideal S128x8 .f32) (x6 : Vec Ideal S256x8 .f32) (p : Fin 2000) (c : Fin 8) (q : Fin 48) (hq : q.val = 40 + c.val) :
    block x0 x1 x2 x3 x4 x5 x6 (ix2 p q)
      = lerpAt 256 (by decide) 0x437F0000#32 254#32 (clip (x0 (ix2 p (0 : Fin 1)))) (fun j => x6 (ix2 j c)) := by
  unfold block k0_pay1
  exact (JoinSix.block5_apply _ _ _ _ _ _ _ p c q hq).trans (lvl5_apply x0 x6 p c)

end Cert.KernelIdeal.Block

end
-- ==== Proof.Spec.lean ====
/-
  The function both programs compute: for each of R coordinates t(n), six levels of table lookup with linear
  interpolation, over tables of 8, 16, 32, 64, 128 and 256 rows of 8 channels, joined side by side into 48 columns.
  Column 8k + c of row n is level k's interpolation of channel c of table k at the coordinate t(n) confined to
  [0, 1]; level k scales the coordinate by S_k - 1 (the words 7.0, 15.0, 31.0, 63.0, 127.0, 255.0) and confines the
  cell to [0, S_k - 2].
-/
import Idealize.ShloMosaic.PureOps.Ideal
import Idealize.ShloMosaic.Lib.Pipeline.Value
import Idealize.ShloMosaic.Lib.ValueIdx
import proofs.«139334_j30185030156575_2_alg».proof.Proof.Interp
import proofs.«139334_j30185030156575_2_alg».proof.Proof.LibJoinSix

noncomputable section

namespace Cert.Spec

open Idealize.ShloMosaic Idealize.ShloMosaic.ValueIdx Cert.Interp Cert.Lib

/-- One level over all the coordinates: entry (n, c) interpolates channel c of the table at coordinate n. -/
def levelArr (R S : Nat) (hS : 0 < S) (lit hi : BitVec 32) (t : (⟨2, ![R, 1]⟩ : Shape).Idx → EReal)
    (vol : (⟨2, ![S, 8]⟩ : Shape).Idx → EReal) : (⟨2, ![R, 8]⟩ : Shape).Idx → EReal :=
  fun i => lerpAt S hS lit hi (clip (t (ix2 (i 0) (0 : Fin 1)))) (fun j => vol (ix2 j (i 1)))

/-- The six levels joined along the channel axis. -/
def G (R : Nat)
    (h : Shape.Concatenates [⟨2, ![R, 8]⟩, ⟨2, ![R, 8]⟩, ⟨2, ![R, 8]⟩, ⟨2, ![R, 8]⟩, ⟨2, ![R, 8]⟩, ⟨2, ![R, 8]⟩]
      ⟨2, ![R, 48]⟩ (1 : Fin 2))
    (t : (⟨2, ![R, 1]⟩ : Shape).Idx → EReal)
    (v0 : (⟨2, ![8, 8]⟩ : Shape).Idx → EReal) (v1 : (⟨2, ![16, 8]⟩ : Shape).Idx → EReal) (v2 : (⟨2, ![32, 8]⟩ : Shape).Idx → EReal)
    (v3 : (⟨2, ![64, 8]⟩ : Shape).Idx → EReal) (v4 : (⟨2, ![128, 8]⟩ : Shape).Idx → EReal) (v5 : (⟨2, ![256, 8]⟩ : Shape).Idx → EReal) :
    (⟨2, ![R, 48]⟩ : Shape).Idx → EReal :=
  concatenate ⟨2, ![R, 48]⟩ (1 : Fin 2)
    [⟨⟨2, ![R, 8]⟩, levelArr R 8 (by decide) 0x40E00000#32 6#32 t v0⟩,
     ⟨⟨2, ![R, 8]⟩, levelArr R 16 (by decide) 0x41700000#32 14#32 t v1⟩,
     ⟨⟨2, ![R, 8]⟩, levelArr R 32 (by decide) 0x41F80000#32 30#32 t v2⟩,
     ⟨⟨2, ![R, 8]⟩, levelArr R 64 (by decide) 0x427C0000#32 62#32 t v3⟩,
     ⟨⟨2, ![R, 8]⟩, levelArr R 128 (by decide) 0x42FE0000#32 126#32 t v4⟩,
     ⟨⟨2, ![R, 8]⟩, levelArr R 256 (by decide) 0x437F0000#32 254#32 t v5⟩] h

variable {R : Nat}
  (h : Shape.Concatenates [⟨2, ![R, 8]⟩, ⟨2, ![R, 8]⟩, ⟨2, ![R, 8]⟩, ⟨2, ![R, 8]⟩, ⟨2, ![R, 8]⟩, ⟨2, ![R, 8]⟩]
    ⟨2, ![R, 48]⟩ (1 : Fin 2))
  (t : (⟨2, ![R, 1]⟩ : Shape).Idx → EReal)
  (v0 : (⟨2, ![8, 8]⟩ : Shape).Idx → EReal) (v1 : (⟨2, ![16, 8]⟩ : Shape).Idx → EReal) (v2 : (⟨2, ![32, 8]⟩ : Shape).Idx → EReal)
  (v3 : (⟨2, ![64, 8]⟩ : Shape).Idx → EReal) (v4 : (⟨2, ![128, 8]⟩ : Shape).Idx → EReal) (v5 : (⟨2, ![256, 8]⟩ : Shape).Idx → EReal)

/-- In columns 0 to 7 the result is level 0 (table of 8 rows). -/
theorem G_block0 (n : Fin R) (c : Fin 8) (q : Fin 48) (hq : q.val = 0 + c.val) :
    G R h t v0 v1 v2 v3 v4 v5 (ix2 n q)
      = lerpAt 8 (by decide) 0x40E00000#32 6#32 (clip (t (ix2 n (0 : Fin 1)))) (fun j => v0 (ix2 j c)) :=
  JoinSix.block0_apply _ _ _ _ _ _ h n c q hq

/-- In columns 8 to 15 the result is level 1 (table of 16 rows). -/
theorem G_block1 (n : Fin R) (c : Fin 8) (q : Fin 48) (hq : q.val = 8 + c.val) :
    G R h t v0 v1 v2 v3 v4 v5 (ix2 n q)
      = lerpAt 16 (by decide) 0x41700000#32 14#32 (clip (t (ix2 n (0 : Fin 1)))) (fun j => v1 (ix2 j c)) :=
  JoinSix.block1_apply _ _ _ _ _ _ h n c q hq

/-- In columns 16 to 23 the result is level 2 (table of 32 rows). -/
theorem G_block2 (n : Fin R) (c : Fin 8) (q : Fin 48) (hq : q.val = 16 + c.val) :
    G R h t v0 v1 v2 v3 v4 v5 (ix2 n q)
      = lerpAt 32 (by decide) 0x41F80000#32 30#32 (clip (t (ix2 n (0 : Fin 1)))) (fun j => v2 (ix2 j c)) :=
  JoinSix.block2_apply _ _ _ _ _ _ h n c q hq

/-- In columns 24 to 31 the result is level 3 (table of 64 rows). -/
theorem G_block3 (n : Fin R) (c : Fin 8) (q : Fin 48) (hq : q.val = 24 + c.val) :
    G R h t v0 v1 v2 v3 v4 v5 (ix2 n q)
      = lerpAt 64 (by decide) 0x427C0000#32 62#32 (clip (t (ix2 n (0 : Fin 1)))) (fun j => v3 (ix2 j c)) :=
  JoinSix.block3_apply _ _ _ _ _ _ h n c q hq

/-- In columns 32 to 39 the result is level 4 (table of 128 rows). -/
theorem G_block4 (n : Fin R) (c : Fin 8) (q : Fin 48) (hq : q.val = 32 + c.val) :
    G R h t v0 v1 v2 v3 v4 v5 (ix2 n q)
      = lerpAt 128 (by decide) 0x42FE0000#32 126#32 (clip (t (ix2 n (0 : Fin 1)))) (fun j => v4 (ix2 j c)) :=
  JoinSix.block4_apply _ _ _ _ _ _ h n c q hq

/-- In columns 40 to 47 the result is level 5 (table of 256 rows). -/
theorem G_block5 (n : Fin R) (c : Fin 8) (q : Fin 48) (hq : q.val = 40 + c.val) :
    G R h t v0 v1 v2 v3 v4 v5 (ix2 n q)
      = lerpAt 256 (by decide) 0x437F0000#32 254#32 (clip (t (ix2 n (0 : Fin 1)))) (fun j => v5 (ix2 j c)) :=
  JoinSix.block5_apply _ _ _ _ _ _ h n c q hq

end Cert.Spec

end
-- ==== Proof.KernelValue.lean ====
/-
  The kernel's result array is the specification of its arguments.

  The grid has 1000 points; point t loads rows 2000 t to 2000 t + 1999 of the coordinates and all six tables whole,
  and writes rows 2000 t to 2000 t + 1999 of the result, all 48 columns. What it writes is the block computed from
  what it loads, and that block is the specification's rows: entry (p, q) of the block is entry (2000 t + p, q) of the
  specification of the whole arrays. The 1000 blocks cover every row (row r is in block r / 2000), so after the run
  the result array is the specification everywhere.
-/
import proofs.«139334_j30185030156575_2_alg».proof.Proof.Gen.KernelIdeal.Value
import Idealize.ShloMosaic.Lib.Pipeline.Value
import Idealize.ShloMosaic.Lib.ValueIdx
import proofs.«139334_j30185030156575_2_alg».proof.Proof.KernelBlock
import proofs.«139334_j30185030156575_2_alg».proof.Proof.Spec

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Lib Cert.Interp Cert.Spec Cert.KernelIdeal.Block

variable (h : Shape.Concatenates [⟨2, ![2000000, 8]⟩, ⟨2, ![2000000, 8]⟩, ⟨2, ![2000000, 8]⟩, ⟨2, ![2000000, 8]⟩, ⟨2, ![2000000, 8]⟩,
      ⟨2, ![2000000, 8]⟩]
    ⟨2, ![2000000, 48]⟩ (1 : Fin 2))

/-- A block of 2000 rows is the specification's rows b * 2000 …: if the loaded coordinates are rows b * 2000 + p of
    the coordinate array and the loaded tables are the tables, entry (p, q) of the block is entry (b * 2000 + p, q) of
    the specification. -/
theorem block_is_G (x0 : Vec Ideal S2000x1 .f32) (x1 : Vec Ideal S8x8 .f32) (x2 : Vec Ideal S16x8 .f32) (x3 : Vec Ideal S32x8 .f32) (x4 : Vec Ideal S64x8 .f32) (x5 : Vec Ideal S128x8 .f32) (x6 : Vec Ideal S256x8 .f32)
    (A0 : (⟨2, ![2000000, 1]⟩ : Shape).Idx → EReal) (A1 : (⟨2, ![8, 8]⟩ : Shape).Idx → EReal) (A2 : (⟨2, ![16, 8]⟩ : Shape).Idx → EReal) (A3 : (⟨2, ![32, 8]⟩ : Shape).Idx → EReal) (A4 : (⟨2, ![64, 8]⟩ : Shape).Idx → EReal) (A5 : (⟨2, ![128, 8]⟩ : Shape).Idx → EReal) (A6 : (⟨2, ![256, 8]⟩ : Shape).Idx → EReal)
    (b : Nat) (hb : b < 1000)
    (hx0 : ∀ p : Fin 2000, x0 (ix2 p (0 : Fin 1))
      = A0 (ix2 (⟨b * 2000 + p.val, by have := p.isLt; omega⟩ : Fin 2000000) (0 : Fin 1)))
    (hx1 : ∀ (j : Fin 8) (c : Fin 8), x1 (ix2 j c) = A1 (ix2 j c))
    (hx2 : ∀ (j : Fin 16) (c : Fin 8), x2 (ix2 j c) = A2 (ix2 j c))
    (hx3 : ∀ (j : Fin 32) (c : Fin 8), x3 (ix2 j c) = A3 (ix2 j c))
    (hx4 : ∀ (j : Fin 64) (c : Fin 8), x4 (ix2 j c) = A4 (ix2 j c))
    (hx5 : ∀ (j : Fin 128) (c : Fin 8), x5 (ix2 j c) = A5 (ix2 j c))
    (hx6 : ∀ (j : Fin 256) (c : Fin 8), x6 (ix2 j c) = A6 (ix2 j c))
    (p : Fin 2000) (q : Fin 48) :
    block x0 x1 x2 x3 x4 x5 x6 (ix2 p q)
      = G 2000000 h A0 A1 A2 A3 A4 A5 A6 (ix2 (⟨b * 2000 + p.val, by have := p.isLt; omega⟩ : Fin 2000000) q) := by
  obtain ⟨k, c, hq⟩ := JoinSix.split q
  have hk := k.isLt
  rcases (by omega : k.val = 0 ∨ k.val = 1 ∨ k.val = 2 ∨ k.val = 3 ∨ k.val = 4 ∨ k.val = 5) with e | e | e | e | e | e
  · have hq' : q.val = 0 + c.val := by omega
    rw [block_cols0 x0 x1 x2 x3 x4 x5 x6 p c q hq',
      G_block0 h A0 A1 A2 A3 A4 A5 A6 ⟨b * 2000 + p.val, by have := p.isLt; omega⟩ c q hq', hx0 p]
    exact congrArg (lerpAt 8 (by decide) 0x40E00000#32 6#32 _) (funext fun j => hx1 j c)
  · have hq' : q.val = 8 + c.val := by omega
    rw [block_cols1 x0 x1 x2 x3 x4 x5 x6 p c q hq',
      G_block1 h A0 A1 A2 A3 A4 A5 A6 ⟨b * 2000 + p.val, by have := p.isLt; omega⟩ c q hq', hx0 p]
    exact congrArg (lerpAt 16 (by decide) 0x41700000#32 14#32 _) (funext fun j => hx2 j c)
  · have hq' : q.val = 16 + c.val := by omega
    rw [block_cols2 x0 x1 x2 x3 x4 x5 x6 p c q hq',
      G_block2 h A0 A1 A2 A3 A4 A5 A6 ⟨b * 2000 + p.val, by have := p.isLt; omega⟩ c q hq', hx0 p]
    exact congrArg (lerpAt 32 (by decide) 0x41F80000#32 30#32 _) (funext fun j => hx3 j c)
  · have hq' : q.val = 24 + c.val := by omega
    rw [block_cols3 x0 x1 x2 x3 x4 x5 x6 p c q hq',
      G_block3 h A0 A1 A2 A3 A4 A5 A6 ⟨b * 2000 + p.val, by have := p.isLt; omega⟩ c q hq', hx0 p]
    exact congrArg (lerpAt 64 (by decide) 0x427C0000#32 62#32 _) (funext fun j => hx4 j c)
  · have hq' : q.val = 32 + c.val := by omega
    rw [block_cols4 x0 x1 x2 x3 x4 x5 x6 p c q hq',
      G_block4 h A0 A1 A2 A3 A4 A5 A6 ⟨b * 2000 + p.val, by have := p.isLt; omega⟩ c q hq', hx0 p]
    exact congrArg (lerpAt 128 (by decide) 0x42FE0000#32 126#32 _) (funext fun j => hx5 j c)
  · have hq' : q.val = 40 + c.val := by omega
    rw [block_cols5 x0 x1 x2 x3 x4 x5 x6 p c q hq',
      G_block5 h A0 A1 A2 A3 A4 A5 A6 ⟨b * 2000 + p.val, by have := p.isLt; omega⟩ c q hq', hx0 p]
    exact congrArg (lerpAt 256 (by decide) 0x437F0000#32 254#32 _) (funext fun j => hx6 j c)

variable (m : (ℓ : Loc nD τ sig) → Buf (Elt Ideal) ℓ) (ρ : Dev nD → PrngReg)

/-- The printed index maps, decided over the 1000 grid points: the coordinates' block moves with the result's block
    along the rows, neither moves along the columns, and every table's block is the whole table. -/
theorem idx_facts : ∀ t : Fin cfg0.N,
    win0_0.index t (0 : Fin 2) = win0_7.index t (0 : Fin 2) ∧ win0_0.index t (1 : Fin 2) = 0
    ∧ win0_7.index t (1 : Fin 2) = 0 ∧ win0_7.index t (0 : Fin 2) < 1000
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- WHAT POINT t WRITES BACK is block t of the specification of the argument arrays. -/
theorem flushed_eq (c : Dev nD) (t : Fin cfg0.N) :
    (dats m 0 c).flushed 7 t = ((cfg0.win 7).blk t).view.read (Elt Ideal)
      (G 2000000 h (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7_A, Block.out_eq]
  obtain ⟨e0, e1, e2, e3, f10, f11, f20, f21, f30, f31, f40, f41, f50, f51, f60, f61⟩ := idx_facts t
  have hx0 : ∀ p : Fin 2000, iblk m c 0 t (ix2 p (0 : Fin 1))
      = m ((c : Thread nD τ).loc main_arg0)
          (ix2 (⟨win0_7.index t (0 : Fin 2) * 2000 + p.val, by have := p.isLt; omega⟩ : Fin 2000000) (0 : Fin 1)) := by
    intro p
    show V m c main_arg0 (((cfg0.win 0).blk t).view.emb (ix2 p (0 : Fin 1))) = _
    refine congrArg (m ((c : Thread nD τ).loc main_arg0)) (funext fun a => Fin.ext ?_)
    match a with
    | ⟨0, _⟩ => show win0_0.index t (0 : Fin 2) * 2000 + 1 * p.val = win0_7.index t (0 : Fin 2) * 2000 + p.val; omega
    | ⟨1, _⟩ => show win0_0.index t (1 : Fin 2) * 1 + 1 * 0 = 0; omega
  have hx1 : ∀ (j : Fin 8) (c' : Fin 8), iblk m c 1 t (ix2 j c') = m ((c : Thread nD τ).loc main_arg1) (ix2 j c') := by
    intro j c'
    show V m c main_arg1 (((cfg0.win 1).blk t).view.emb (ix2 j c')) = _
    refine congrArg (m ((c : Thread nD τ).loc main_arg1)) (funext fun a => Fin.ext ?_)
    match a with
    | ⟨0, _⟩ => show win0_1.index t (0 : Fin 2) * 8 + 1 * j.val = j.val; omega
    | ⟨1, _⟩ => show win0_1.index t (1 : Fin 2) * 8 + 1 * c'.val = c'.val; omega
  have hx2 : ∀ (j : Fin 16) (c' : Fin 8), iblk m c 2 t (ix2 j c') = m ((c : Thread nD τ).loc main_arg2) (ix2 j c') := by
    intro j c'
    show V m c main_arg2 (((cfg0.win 2).blk t).view.emb (ix2 j c')) = _
    refine congrArg (m ((c : Thread nD τ).loc main_arg2)) (funext fun a => Fin.ext ?_)
    match a with
    | ⟨0, _⟩ => show win0_2.index t (0 : Fin 2) * 16 + 1 * j.val = j.val; omega
    | ⟨1, _⟩ => show win0_2.index t (1 : Fin 2) * 8 + 1 * c'.val = c'.val; omega
  have hx3 : ∀ (j : Fin 32) (c' : Fin 8), iblk m c 3 t (ix2 j c') = m ((c : Thread nD τ).loc main_arg3) (ix2 j c') := by
    intro j c'
    show V m c main_arg3 (((cfg0.win 3).blk t).view.emb (ix2 j c')) = _
    refine congrArg (m ((c : Thread nD τ).loc main_arg3)) (funext fun a => Fin.ext ?_)
    match a with
    | ⟨0, _⟩ => show win0_3.index t (0 : Fin 2) * 32 + 1 * j.val = j.val; omega
    | ⟨1, _⟩ => show win0_3.index t (1 : Fin 2) * 8 + 1 * c'.val = c'.val; omega
  have hx4 : ∀ (j : Fin 64) (c' : Fin 8), iblk m c 4 t (ix2 j c') = m ((c : Thread nD τ).loc main_arg4) (ix2 j c') := by
    intro j c'
    show V m c main_arg4 (((cfg0.win 4).blk t).view.emb (ix2 j c')) = _
    refine congrArg (m ((c : Thread nD τ).loc main_arg4)) (funext fun a => Fin.ext ?_)
    match a with
    | ⟨0, _⟩ => show win0_4.index t (0 : Fin 2) * 64 + 1 * j.val = j.val; omega
    | ⟨1, _⟩ => show win0_4.index t (1 : Fin 2) * 8 + 1 * c'.val = c'.val; omega
  have hx5 : ∀ (j : Fin 128) (c' : Fin 8), iblk m c 5 t (ix2 j c') = m ((c : Thread nD τ).loc main_arg5) (ix2 j c') := by
    intro j c'
    show V m c main_arg5 (((cfg0.win 5).blk t).view.emb (ix2 j c')) = _
    refine congrArg (m ((c : Thread nD τ).loc main_arg5)) (funext fun a => Fin.ext ?_)
    match a with
    | ⟨0, _⟩ => show win0_5.index t (0 : Fin 2) * 128 + 1 * j.val = j.val; omega
    | ⟨1, _⟩ => show win0_5.index t (1 : Fin 2) * 8 + 1 * c'.val = c'.val; omega
  have hx6 : ∀ (j : Fin 256) (c' : Fin 8), iblk m c 6 t (ix2 j c') = m ((c : Thread nD τ).loc main_arg6) (ix2 j c') := by
    intro j c'
    show V m c main_arg6 (((cfg0.win 6).blk t).view.emb (ix2 j c')) = _
    refine congrArg (m ((c : Thread nD τ).loc main_arg6)) (funext fun a => Fin.ext ?_)
    match a with
    | ⟨0, _⟩ => show win0_6.index t (0 : Fin 2) * 256 + 1 * j.val = j.val; omega
    | ⟨1, _⟩ => show win0_6.index t (1 : Fin 2) * 8 + 1 * c'.val = c'.val; omega
  funext y
  have hy0 : (y 0).val < 2000 := (y 0).isLt
  have hy1 : (y 1).val < 48 := (y 1).isLt
  refine (congrArg (block (iblk m c 0 t) (iblk m c 1 t) (iblk m c 2 t) (iblk m c 3 t) (iblk m c 4 t) (iblk m c 5 t)
    (iblk m c 6 t)) (eq_ix2 y)).trans ?_
  refine (block_is_G h (iblk m c 0 t) (iblk m c 1 t) (iblk m c 2 t) (iblk m c 3 t) (iblk m c 4 t) (iblk m c 5 t)
    (iblk m c 6 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (win0_7.index t (0 : Fin 2)) e3 hx0 hx1 hx2 hx3 hx4 hx5 hx6 (y 0) (y 1)).trans ?_
  show G 2000000 h (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _
    = G 2000000 h (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y)
  refine congrArg (G 2000000 h (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (funext fun a => Fin.ext ?_)
  match a with
  | ⟨0, _⟩ => show win0_7.index t (0 : Fin 2) * 2000 + (y 0).val = win0_7.index t (0 : Fin 2) * 2000 + 1 * (y 0).val; omega
  | ⟨1, _⟩ => show (y 1).val = win0_7.index t (1 : Fin 2) * 48 + 1 * (y 1).val; omega

/-- An index of the result array is in point t's block iff each coordinate is in the block's range on its axis. -/
theorem mem_blk (t : Fin cfg0.N) (i : S2000000x48.Idx) :
    i ∈ ((cfg0.win 7).blk t).view.set ↔ ∀ a : Fin 2, win0_7.index t a * S2000x48.size a ≤ (i a).val
      ∧ (i a).val < win0_7.index t a * S2000x48.size a + S2000x48.size a := by
  show i ∈ ((View.whole main_v0).slice (win0_7.rect t)).set ↔ _
  rw [View.set_slice_whole, Rect.mem_set_unit]
  exact Iff.rfl

/-- Every index of the result array is in some point's block: row r is in block r / 2000. -/
theorem cover (i : S2000000x48.Idx) :
    ∃ t : Fin cfg0.N, (cfg0.win 7).flush t = true ∧ i ∈ ((cfg0.win 7).blk t).view.set := by
  have hi0 : (i 0).val < 2000000 := (i 0).isLt
  have hi1 : (i 1).val < 48 := (i 1).isLt
  have ht : (i 0).val / 2000 < cfg0.N := by show (i 0).val / 2000 < 1000; omega
  refine ⟨⟨(i 0).val / 2000, ht⟩, flush0_7 _, ?_⟩
  rw [mem_blk]
  have q0 : win0_7.index ⟨(i 0).val / 2000, ht⟩ (0 : Fin 2) = (i 0).val / 2000 := Value.idx_pt7 _
  obtain ⟨_, _, e2, _⟩ := idx_facts ⟨(i 0).val / 2000, ht⟩
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    omega
  | ⟨1, _⟩ =>
    show win0_7.index ⟨(i 0).val / 2000, ht⟩ (1 : Fin 2) * 48 ≤ (i 1).val
      ∧ (i 1).val < win0_7.index ⟨(i 0).val / 2000, ht⟩ (1 : Fin 2) * 48 + 48
    omega

/-- THE RESULT ARRAY after the run is the specification of the argument arrays. -/
theorem final (c : Dev nD) :
    (dats m 0 c).arrAt 7 cfg0.N = G 2000000 h (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed_eq h m c t) cover

/-- The kernel's run: every weakly fair execution terminates with the result array at the specification of the
    arguments and the arguments unchanged. -/
theorem run : θ_run defs (onTc (τ := τ) (main (F := Ideal))) ⟨m, fun _ => 0, ρ⟩ fun r => ∀ c : Dev nD,
      r.2.mem ((c : Thread nD τ).loc main_v0) = G 2000000 h (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r hh c => ⟨(hh c).1.trans (final h m c), (hh c).2⟩) (Value.run_blocks m ρ)

end Cert.KernelIdeal.Whole

end
-- ==== Proof.LibBroadcastInDim.lean ====
/-
  A broadcast along named axes (stablehlo.broadcast_in_dim), read at an index, for the three layouts a row statistic
  meets on the host: a scalar repeated over any shape; a vector [a] laid out as a column [a, 1]; a column [a, 1]
  repeated across the b columns of an [a, b] matrix. For any extents and any element type.
-/
import Idealize.ShloMosaic.Lib.Pipeline.Value
import Idealize.ShloMosaic.Lib.ValueIdx

noncomputable section

namespace Cert.Lib.BroadcastInDim

open Idealize.ShloMosaic Idealize.ShloMosaic.ValueIdx

variable {α : Type}

/-- A scalar (a rank-0 array) broadcast to any shape: every element is the scalar. -/
theorem scalar_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply dims h x j ix0 (fun a => a.elim0)

/-- A vector laid out as a column, [a] → [a, 1] along axis 0: row p of the column is element p of the vector. -/
theorem vecAsCol_apply {a : Nat} (h : (⟨1, ![a]⟩ : Shape).BroadcastsInDim ⟨2, ![a, 1]⟩ (![0] : Fin 1 → Fin 2))
    (v : (⟨1, ![a]⟩ : Shape).Idx → α) (p : Fin a) :
    broadcastInDim ⟨2, ![a, 1]⟩ ![0] h v (ix2 p (0 : Fin 1)) = v (ix1 p) :=
  broadcastInDim_apply _ h v (ix2 p (0 : Fin 1)) (ix1 p) (fun d => match d with
    | ⟨0, _⟩ => by
        show p.val = if a = 1 then 0 else p.val
        split_ifs with ha
        · subst ha; have := p.isLt; omega
        · rfl)

/-- A column repeated across the columns of a matrix, [a, 1] → [a, b] along axes 0 and 1: entry (p, q) is the
    column's row p. -/
theorem colAcross_apply {a b : Nat}
    (h : (⟨2, ![a, 1]⟩ : Shape).BroadcastsInDim ⟨2, ![a, b]⟩ (![0, 1] : Fin 2 → Fin 2))
    (col : (⟨2, ![a, 1]⟩ : Shape).Idx → α) (p : Fin a) (q : Fin b) :
    broadcastInDim ⟨2, ![a, b]⟩ ![0, 1] h col (ix2 p q) = col (ix2 p (0 : Fin 1)) :=
  broadcastInDim_apply _ h col (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

end Cert.Lib.BroadcastInDim

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.RefLevel.lean ====
/-
  One level of the lookup as the host reference computes it: two row gathers and a weighted sum.

  For R coordinates and a table of S rows the reference takes the cell of each coordinate (position, floor, integer,
  clamped into [0, hi]) and the fraction, gathers the table's rows at the cells and at the cells plus one — each index
  first wrapped ("add S if negative", numpy-style indexing) and then clamped into [0, S - 1] by the gather — and adds
  row(cell) * (1 - frac) and row(cell + 1) * frac. The cell lies in [0, hi] with hi + 1 < S, so neither the wrap nor
  the gather's clamp changes either index, and entry (n, c) is the level's interpolation of column c at coordinate n.
-/
import Idealize.ShloMosaic.PureOps.Ideal
import Idealize.ShloMosaic.Lib.Pipeline.Value
import Idealize.ShloMosaic.Lib.ValueIdx
import proofs.«139334_j30185030156575_2_alg».proof.Proof.LibGatherRows
import proofs.«139334_j30185030156575_2_alg».proof.Proof.LibBroadcastInDim
import proofs.«139334_j30185030156575_2_alg».proof.Proof.Interp

noncomputable section

namespace Cert.RefLevel

open Idealize.ShloMosaic Idealize.ShloMosaic.ValueIdx Cert.Lib Cert.Interp

variable (R S : Nat) (lit hi Sw : BitVec 32)
  (gd : GatherDims ⟨2, ![S, 8]⟩ ⟨2, ![R, 1]⟩ ⟨2, ![R, 8]⟩)
  (hv : (⟨0, ![]⟩ : Shape).BroadcastsInDim ⟨1, ![R]⟩ (![] : Fin 0 → Fin 1))
  (hvc : (⟨1, ![R]⟩ : Shape).BroadcastsInDim ⟨2, ![R, 1]⟩ (![0] : Fin 1 → Fin 2))
  (hsc : (⟨0, ![]⟩ : Shape).BroadcastsInDim ⟨2, ![R, 1]⟩ (![] : Fin 0 → Fin 2))
  (hcm : (⟨2, ![R, 1]⟩ : Shape).BroadcastsInDim ⟨2, ![R, 8]⟩ (![0, 1] : Fin 2 → Fin 2))
  (tc : FVec Ideal ⟨1, ![R]⟩ .f32) (vol : FVec Ideal ⟨2, ![S, 8]⟩ .f32)

/-- The positions: the confined coordinates times the scale. -/
def posV : FVec Ideal ⟨1, ![R]⟩ .f32 :=
  mulf tc (broadcastInDim ⟨1, ![R]⟩ (![] : Fin 0 → Fin 1) hv (constant ⟨0, ![]⟩ .f32 lit))

/-- The cells: floor, to integer, clamped into [0, hi]. -/
def cellV : IVec ⟨1, ![R]⟩ 32 :=
  minsi (broadcastInDim ⟨1, ![R]⟩ (![] : Fin 0 → Fin 1) hv (id (constantI ⟨0, ![]⟩ 32 hi)))
    (maxsi (broadcastInDim ⟨1, ![R]⟩ (![] : Fin 0 → Fin 1) hv (id (constantI ⟨0, ![]⟩ 32 0#32)))
      (fptosi 32 (Host.floor (posV R lit hv tc))))

/-- The fractions. -/
def fracV : FVec Ideal ⟨1, ![R]⟩ .f32 := subf (posV R lit hv tc) (sitofp .f32 (cellV R lit hi hv tc))

/-- An index vector wrapped numpy-style: S added where negative. -/
def wrapV (J : IVec ⟨1, ![R]⟩ 32) : IVec ⟨1, ![R]⟩ 32 :=
  select (cmpi .slt J (broadcastInDim ⟨1, ![R]⟩ (![] : Fin 0 → Fin 1) hv (constantI ⟨0, ![]⟩ 32 0#32)))
    (addi J (broadcastInDim ⟨1, ![R]⟩ (![] : Fin 0 → Fin 1) hv (constantI ⟨0, ![]⟩ 32 Sw))) J

/-- An index vector plus one. -/
def nextV (J : IVec ⟨1, ![R]⟩ 32) : IVec ⟨1, ![R]⟩ 32 :=
  addi J (broadcastInDim ⟨1, ![R]⟩ (![] : Fin 0 → Fin 1) hv (constantI ⟨0, ![]⟩ 32 1#32))

/-- The fractions as a column. -/
def fracC : FVec Ideal ⟨2, ![R, 1]⟩ .f32 :=
  broadcastInDim ⟨2, ![R, 1]⟩ (![0] : Fin 1 → Fin 2) hvc (fracV R lit hi hv tc)

/-- The level's [R, 8] result from the confined coordinates and the table, the host's operations in its order. -/
def level : FVec Ideal ⟨2, ![R, 8]⟩ .f32 :=
  addf
    (mulf
      (Host.gather gd vol
        (broadcastInDim ⟨2, ![R, 1]⟩ (![0] : Fin 1 → Fin 2) hvc (wrapV R Sw hv (cellV R lit hi hv tc))))
      (broadcastInDim ⟨2, ![R, 8]⟩ (![0, 1] : Fin 2 → Fin 2) hcm
        (subf (broadcastInDim ⟨2, ![R, 1]⟩ (![] : Fin 0 → Fin 2) hsc (constant ⟨0, ![]⟩ .f32 0x3F800000#32))
          (fracC R lit hi hv hvc tc))))
    (mulf
      (Host.gather gd vol
        (broadcastInDim ⟨2, ![R, 1]⟩ (![0] : Fin 1 → Fin 2) hvc
          (wrapV R Sw hv (nextV R hv (cellV R lit hi hv tc)))))
      (broadcastInDim ⟨2, ![R, 8]⟩ (![0, 1] : Fin 2 → Fin 2) hcm (fracC R lit hi hv hvc tc)))

variable {R S}

section pointwise
variable {s : Shape} {w : Nat}
theorem minsi_at (x y : IVec s w) (i : s.Idx) : minsi x y i = IntOp.minsi (x i) (y i) := rfl
theorem maxsi_at (x y : IVec s w) (i : s.Idx) : maxsi x y i = IntOp.maxsi (x i) (y i) := rfl
theorem addi_at (x y : IVec s w) (i : s.Idx) : addi x y i = IntOp.addi (x i) (y i) := rfl
theorem cmpi_at (p : CmpIPredicate) (x y : IVec s w) (i : s.Idx) : cmpi p x y i = IntOp.cmpi p (x i) (y i) := rfl
theorem fptosi_at {φ : FTy} (x : FVec Ideal s φ) (i : s.Idx) : fptosi w x i = FloatOps.fptosi w (x i) := rfl
theorem hostFloor_at {φ : FTy} (x : FVec Ideal s φ) (i : s.Idx) :
    Host.floor x i = FloatOps.hostUnary .floor (x i) := rfl
end pointwise

theorem posV_apply (n : Fin R) : posV R lit hv tc (ix1 n) = posOf lit (tc (ix1 n)) := by
  unfold posV
  rw [mulf_apply, BroadcastInDim.scalar_apply]
  rfl

theorem cellV_apply (n : Fin R) : cellV R lit hi hv tc (ix1 n) = cellOf lit hi (tc (ix1 n)) := by
  unfold cellV
  rw [minsi_at, maxsi_at, BroadcastInDim.scalar_apply, BroadcastInDim.scalar_apply, fptosi_at, hostFloor_at,
    posV_apply]
  rfl

theorem fracV_apply (n : Fin R) : fracV R lit hi hv tc (ix1 n) = fracOf lit hi (tc (ix1 n)) := by
  unfold fracV
  rw [subf_apply, sitofp_apply, posV_apply, cellV_apply]
  rfl

theorem wrapV_apply (J : IVec ⟨1, ![R]⟩ 32) (n : Fin R) :
    wrapV R Sw hv J (ix1 n) = Scalar.select (IntOp.cmpi .slt (J (ix1 n)) 0#32) (IntOp.addi (J (ix1 n)) Sw) (J (ix1 n)) := by
  unfold wrapV
  rw [select_apply, cmpi_at, addi_at, BroadcastInDim.scalar_apply, BroadcastInDim.scalar_apply]
  rfl

theorem nextV_apply (J : IVec ⟨1, ![R]⟩ 32) (n : Fin R) : nextV R hv J (ix1 n) = IntOp.addi (J (ix1 n)) 1#32 := by
  unfold nextV
  rw [addi_at, BroadcastInDim.scalar_apply]
  rfl

theorem fracC_apply (n : Fin R) :
    fracC R lit hi hv hvc tc (ix2 n (0 : Fin 1)) = fracOf lit hi (tc (ix1 n)) := by
  unfold fracC
  rw [BroadcastInDim.vecAsCol_apply, fracV_apply]

/-- ENTRY (n, c) OF THE LEVEL: the interpolation of the table's column c at coordinate n. -/
theorem level_apply (hS : 0 < S) (hS' : S ≤ 2 ^ 31) (hhi0 : 0 ≤ hi.toInt) (hhi : hi.toInt + 1 < S)
    (wf : GatherDims.WF ⟨2, ![S, 8]⟩ ⟨2, ![R, 1]⟩ ⟨2, ![R, 8]⟩ [1] [0] [] [0] [] 1 ![1, 8])
    (hgd : gd = GatherRows.rowsDims S R 8 wf) (n : Fin R) (c : Fin 8) :
    level R S lit hi Sw gd hv hvc hsc hcm tc vol (ix2 n c)
      = lerpAt S hS lit hi (tc (ix1 n)) (fun j => vol (ix2 j c)) := by
  subst hgd
  obtain ⟨b0, b1⟩ := cell_bounds lit hi hhi0 (tc (ix1 n))
  have bs : (IntOp.addi (cellOf lit hi (tc (ix1 n))) 1#32).toInt = (cellOf lit hi (tc (ix1 n))).toInt + 1 :=
    TwoHot.succ_toInt _ b0 (by omega)
  unfold level
  rw [addf_apply, mulf_apply, mulf_apply, GatherRows.rows_gather_apply hS wf vol _ n c,
    GatherRows.rows_gather_apply hS wf vol _ n c, BroadcastInDim.colAcross_apply, BroadcastInDim.colAcross_apply,
    subf_apply, BroadcastInDim.scalar_apply, BroadcastInDim.vecAsCol_apply, BroadcastInDim.vecAsCol_apply,
    fracC_apply, wrapV_apply, wrapV_apply, nextV_apply, cellV_apply,
    TwoHot.wrap_nonneg _ Sw b0, TwoHot.wrap_nonneg _ Sw (by rw [bs]; omega)]
  rfl

end Cert.RefLevel

end
-- ==== Proof.RefValue.lean ====
/-
  The reference's result is the specification: each of its six levels is the host pattern of RefLevel — the same
  stages in the same order — so entry (n, c) of a level is that level's interpolation of channel c at the confined
  coordinate of row n, and the final concatenation joins the six levels as the specification does.
-/
import proofs.«139334_j30185030156575_2_alg».proof.Proof.Gen.ReferenceIdeal.Read
import Idealize.ShloMosaic.Lib.Pipeline.Value
import Idealize.ShloMosaic.Lib.ValueIdx
import proofs.«139334_j30185030156575_2_alg».proof.Proof.LibColumns
import proofs.«139334_j30185030156575_2_alg».proof.Proof.LibBroadcastInDim
import proofs.«139334_j30185030156575_2_alg».proof.Proof.RefLevel
import proofs.«139334_j30185030156575_2_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.SL.Sem Idealize.ShloMosaic.StableHlo
open Idealize.ShloMosaic.ValueIdx Cert.Lib Cert.Interp Cert.Spec

/-- The host's clip of the coordinates, at row n: the coordinate confined to [0, 1]. -/
theorem clip_apply (x0 : (⟨S2000000x1, .f32⟩ : BufTy).Contents (Elt Ideal)) (n : Fin 2000000) :
    val_main_v1 (F := Ideal) x0 (ix1 n) = clip (x0 (ix2 n (0 : Fin 1))) := by
  unfold val_main_v1 val_main_call0_v2 val_main_call0_v4 val_main_call0_v1 val_main_v0
  rw [minimumf_apply, maximumf_apply, BroadcastInDim.scalar_apply, BroadcastInDim.scalar_apply,
    Columns.colAsVec_apply]
  rfl

/-- Level 0 (table of 8 rows) at entry (n, c): the host's stages are the level's pattern, hence its interpolation. -/
theorem level0_apply (x0 : (⟨S2000000x1, .f32⟩ : BufTy).Contents (Elt Ideal)) (v : (⟨S8x8, .f32⟩ : BufTy).Contents (Elt Ideal)) (n : Fin 2000000) (c : Fin 8) :
    val_main_v32 (F := Ideal) x0 v (ix2 n c)
      = lerpAt 8 (by decide) 0x40E00000#32 6#32 (clip (x0 (ix2 n (0 : Fin 1)))) (fun j => v (ix2 j c)) := by
  have e : val_main_v32 (F := Ideal) x0 v
      = RefLevel.level 2000000 8 0x40E00000#32 6#32 8#32 gather_S8x8_S2000000x1_S2000000x8_1_0_n_n_0_1_18
          bcast_S_S2000000 bcast_S2000000_S2000000x1_0 bcast_S_S2000000x1 bcast_S2000000x1_S2000000x8_0_1
          (val_main_v1 (F := Ideal) x0) v := rfl
  rw [e, RefLevel.level_apply 0x40E00000#32 6#32 8#32 gather_S8x8_S2000000x1_S2000000x8_1_0_n_n_0_1_18 bcast_S_S2000000 bcast_S2000000_S2000000x1_0
    bcast_S_S2000000x1 bcast_S2000000x1_S2000000x8_0_1 (val_main_v1 (F := Ideal) x0) v (by decide) (by decide)
    (by decide) (by decide) gather_S8x8_S2000000x1_S2000000x8_1_0_n_n_0_1_18.wf rfl n c, clip_apply]

theorem level0_eq (x0 : (⟨S2000000x1, .f32⟩ : BufTy).Contents (Elt Ideal)) (v : (⟨S8x8, .f32⟩ : BufTy).Contents (Elt Ideal)) :
    val_main_v32 (F := Ideal) x0 v = levelArr 2000000 8 (by decide) 0x40E00000#32 6#32 x0 v := by
  funext i
  obtain ⟨n, c, rfl⟩ : ∃ (n : Fin 2000000) (c : Fin 8), i = ix2 n c := ⟨i 0, i 1, eq_ix2 i⟩
  exact level0_apply x0 v n c

/-- Level 1 (table of 16 rows) at entry (n, c): the host's stages are the level's pattern, hence its interpolation. -/
theorem level1_apply (x0 : (⟨S2000000x1, .f32⟩ : BufTy).Contents (Elt Ideal)) (v : (⟨S16x8, .f32⟩ : BufTy).Contents (Elt Ideal)) (n : Fin 2000000) (c : Fin 8) :
    val_main_v63 (F := Ideal) x0 v (ix2 n c)
      = lerpAt 16 (by decide) 0x41700000#32 14#32 (clip (x0 (ix2 n (0 : Fin 1)))) (fun j => v (ix2 j c)) := by
  have e : val_main_v63 (F := Ideal) x0 v
      = RefLevel.level 2000000 16 0x41700000#32 14#32 16#32 gather_S16x8_S2000000x1_S2000000x8_1_0_n_n_0_1_18
          bcast_S_S2000000 bcast_S2000000_S2000000x1_0 bcast_S_S2000000x1 bcast_S2000000x1_S2000000x8_0_1
          (val_main_v1 (F := Ideal) x0) v := rfl
  rw [e, RefLevel.level_apply 0x41700000#32 14#32 16#32 gather_S16x8_S2000000x1_S2000000x8_1_0_n_n_0_1_18 bcast_S_S2000000 bcast_S2000000_S2000000x1_0
    bcast_S_S2000000x1 bcast_S2000000x1_S2000000x8_0_1 (val_main_v1 (F := Ideal) x0) v (by decide) (by decide)
    (by decide) (by decide) gather_S16x8_S2000000x1_S2000000x8_1_0_n_n_0_1_18.wf rfl n c, clip_apply]

theorem level1_eq (x0 : (⟨S2000000x1, .f32⟩ : BufTy).Contents (Elt Ideal)) (v : (⟨S16x8, .f32⟩ : BufTy).Contents (Elt Ideal)) :
    val_main_v63 (F := Ideal) x0 v = levelArr 2000000 16 (by decide) 0x41700000#32 14#32 x0 v := by
  funext i
  obtain ⟨n, c, rfl⟩ : ∃ (n : Fin 2000000) (c : Fin 8), i = ix2 n c := ⟨i 0, i 1, eq_ix2 i⟩
  exact level1_apply x0 v n c

/-- Level 2 (table of 32 rows) at entry (n, c): the host's stages are the level's pattern, hence its interpolation. -/
theorem level2_apply (x0 : (⟨S2000000x1, .f32⟩ : BufTy).Contents (Elt Ideal)) (v : (⟨S32x8, .f32⟩ : BufTy).Contents (Elt Ideal)) (n : Fin 2000000) (c : Fin 8) :
    val_main_v94 (F := Ideal) x0 v (ix2 n c)
      = lerpAt 32 (by decide) 0x41F80000#32 30#32 (clip (x0 (ix2 n (0 : Fin 1)))) (fun j => v (ix2 j c)) := by
  have e : val_main_v94 (F := Ideal) x0 v
      = RefLevel.level 2000000 32 0x41F80000#32 30#32 32#32 gather_S32x8_S2000000x1_S2000000x8_1_0_n_n_0_1_18
          bcast_S_S2000000 bcast_S2000000_S2000000x1_0 bcast_S_S2000000x1 bcast_S2000000x1_S2000000x8_0_1
          (val_main_v1 (F := Ideal) x0) v := rfl
  rw [e, RefLevel.level_apply 0x41F80000#32 30#32 32#32 gather_S32x8_S2000000x1_S2000000x8_1_0_n_n_0_1_18 bcast_S_S2000000 bcast_S2000000_S2000000x1_0
    bcast_S_S2000000x1 bcast_S2000000x1_S2000000x8_0_1 (val_main_v1 (F := Ideal) x0) v (by decide) (by decide)
    (by decide) (by decide) gather_S32x8_S2000000x1_S2000000x8_1_0_n_n_0_1_18.wf rfl n c, clip_apply]

theorem level2_eq (x0 : (⟨S2000000x1, .f32⟩ : BufTy).Contents (Elt Ideal)) (v : (⟨S32x8, .f32⟩ : BufTy).Contents (Elt Ideal)) :
    val_main_v94 (F := Ideal) x0 v = levelArr 2000000 32 (by decide) 0x41F80000#32 30#32 x0 v := by
  funext i
  obtain ⟨n, c, rfl⟩ : ∃ (n : Fin 2000000) (c : Fin 8), i = ix2 n c := ⟨i 0, i 1, eq_ix2 i⟩
  exact level2_apply x0 v n c

/-- Level 3 (table of 64 rows) at entry (n, c): the host's stages are the level's pattern, hence its interpolation. -/
theorem level3_apply (x0 : (⟨S2000000x1, .f32⟩ : BufTy).Contents (Elt Ideal)) (v : (⟨S64x8, .f32⟩ : BufTy).Contents (Elt Ideal)) (n : Fin 2000000) (c : Fin 8) :
    val_main_v125 (F := Ideal) x0 v (ix2 n c)
      = lerpAt 64 (by decide) 0x427C0000#32 62#32 (clip (x0 (ix2 n (0 : Fin 1)))) (fun j => v (ix2 j c)) := by
  have e : val_main_v125 (F := Ideal) x0 v
      = RefLevel.level 2000000 64 0x427C0000#32 62#32 64#32 gather_S64x8_S2000000x1_S2000000x8_1_0_n_n_0_1_18
          bcast_S_S2000000 bcast_S2000000_S2000000x1_0 bcast_S_S2000000x1 bcast_S2000000x1_S2000000x8_0_1
          (val_main_v1 (F := Ideal) x0) v := rfl
  rw [e, RefLevel.level_apply 0x427C0000#32 62#32 64#32 gather_S64x8_S2000000x1_S2000000x8_1_0_n_n_0_1_18 bcast_S_S2000000 bcast_S2000000_S2000000x1_0
    bcast_S_S2000000x1 bcast_S2000000x1_S2000000x8_0_1 (val_main_v1 (F := Ideal) x0) v (by decide) (by decide)
    (by decide) (by decide) gather_S64x8_S2000000x1_S2000000x8_1_0_n_n_0_1_18.wf rfl n c, clip_apply]

theorem level3_eq (x0 : (⟨S2000000x1, .f32⟩ : BufTy).Contents (Elt Ideal)) (v : (⟨S64x8, .f32⟩ : BufTy).Contents (Elt Ideal)) :
    val_main_v125 (F := Ideal) x0 v = levelArr 2000000 64 (by decide) 0x427C0000#32 62#32 x0 v := by
  funext i
  obtain ⟨n, c, rfl⟩ : ∃ (n : Fin 2000000) (c : Fin 8), i = ix2 n c := ⟨i 0, i 1, eq_ix2 i⟩
  exact level3_apply x0 v n c

/-- Level 4 (table of 128 rows) at entry (n, c): the host's stages are the level's pattern, hence its interpolation. -/
theorem level4_apply (x0 : (⟨S2000000x1, .f32⟩ : BufTy).Contents (Elt Ideal)) (v : (⟨S128x8, .f32⟩ : BufTy).Contents (Elt Ideal)) (n : Fin 2000000) (c : Fin 8) :
    val_main_v156 (F := Ideal) x0 v (ix2 n c)
      = lerpAt 128 (by decide) 0x42FE0000#32 126#32 (clip (x0 (ix2 n (0 : Fin 1)))) (fun j => v (ix2 j c)) := by
  have e : val_main_v156 (F := Ideal) x0 v
      = RefLevel.level 2000000 128 0x42FE0000#32 126#32 128#32 gather_S128x8_S2000000x1_S2000000x8_1_0_n_n_0_1_18
          bcast_S_S2000000 bcast_S2000000_S2000000x1_0 bcast_S_S2000000x1 bcast_S2000000x1_S2000000x8_0_1
          (val_main_v1 (F := Ideal) x0) v := rfl
  rw [e, RefLevel.level_apply 0x42FE0000#32 126#32 128#32 gather_S128x8_S2000000x1_S2000000x8_1_0_n_n_0_1_18 bcast_S_S2000000 bcast_S2000000_S2000000x1_0
    bcast_S_S2000000x1 bcast_S2000000x1_S2000000x8_0_1 (val_main_v1 (F := Ideal) x0) v (by decide) (by decide)
    (by decide) (by decide) gather_S128x8_S2000000x1_S2000000x8_1_0_n_n_0_1_18.wf rfl n c, clip_apply]

theorem level4_eq (x0 : (⟨S2000000x1, .f32⟩ : BufTy).Contents (Elt Ideal)) (v : (⟨S128x8, .f32⟩ : BufTy).Contents (Elt Ideal)) :
    val_main_v156 (F := Ideal) x0 v = levelArr 2000000 128 (by decide) 0x42FE0000#32 126#32 x0 v := by
  funext i
  obtain ⟨n, c, rfl⟩ : ∃ (n : Fin 2000000) (c : Fin 8), i = ix2 n c := ⟨i 0, i 1, eq_ix2 i⟩
  exact level4_apply x0 v n c

/-- Level 5 (table of 256 rows) at entry (n, c): the host's stages are the level's pattern, hence its interpolation. -/
theorem level5_apply (x0 : (⟨S2000000x1, .f32⟩ : BufTy).Contents (Elt Ideal)) (v : (⟨S256x8, .f32⟩ : BufTy).Contents (Elt Ideal)) (n : Fin 2000000) (c : Fin 8) :
    val_main_v187 (F := Ideal) x0 v (ix2 n c)
      = lerpAt 256 (by decide) 0x437F0000#32 254#32 (clip (x0 (ix2 n (0 : Fin 1)))) (fun j => v (ix2 j c)) := by
  have e : val_main_v187 (F := Ideal) x0 v
      = RefLevel.level 2000000 256 0x437F0000#32 254#32 256#32 gather_S256x8_S2000000x1_S2000000x8_1_0_n_n_0_1_18
          bcast_S_S2000000 bcast_S2000000_S2000000x1_0 bcast_S_S2000000x1 bcast_S2000000x1_S2000000x8_0_1
          (val_main_v1 (F := Ideal) x0) v := rfl
  rw [e, RefLevel.level_apply 0x437F0000#32 254#32 256#32 gather_S256x8_S2000000x1_S2000000x8_1_0_n_n_0_1_18 bcast_S_S2000000 bcast_S2000000_S2000000x1_0
    bcast_S_S2000000x1 bcast_S2000000x1_S2000000x8_0_1 (val_main_v1 (F := Ideal) x0) v (by decide) (by decide)
    (by decide) (by decide) gather_S256x8_S2000000x1_S2000000x8_1_0_n_n_0_1_18.wf rfl n c, clip_apply]

theorem level5_eq (x0 : (⟨S2000000x1, .f32⟩ : BufTy).Contents (Elt Ideal)) (v : (⟨S256x8, .f32⟩ : BufTy).Contents (Elt Ideal)) :
    val_main_v187 (F := Ideal) x0 v = levelArr 2000000 256 (by decide) 0x437F0000#32 254#32 x0 v := by
  funext i
  obtain ⟨n, c, rfl⟩ : ∃ (n : Fin 2000000) (c : Fin 8), i = ix2 n c := ⟨i 0, i 1, eq_ix2 i⟩
  exact level5_apply x0 v n c

/-- The side condition of the final join: six [2000000, 8] arrays side by side make a [2000000, 48] array. -/
abbrev joinFact : Shape.Concatenates
    [⟨2, ![2000000, 8]⟩, ⟨2, ![2000000, 8]⟩, ⟨2, ![2000000, 8]⟩, ⟨2, ![2000000, 8]⟩, ⟨2, ![2000000, 8]⟩,
      ⟨2, ![2000000, 8]⟩] ⟨2, ![2000000, 48]⟩ (1 : Fin 2) :=
  concatenates_S2000000x8_S2000000x8_S2000000x8_S2000000x8_S2000000x8_S2000000x8_S2000000x48_d1

/-- THE REFERENCE'S RESULT IS THE SPECIFICATION of its arguments. -/
theorem result_eq (x0 : (⟨S2000000x1, .f32⟩ : BufTy).Contents (Elt Ideal)) (x1 : (⟨S8x8, .f32⟩ : BufTy).Contents (Elt Ideal)) (x2 : (⟨S16x8, .f32⟩ : BufTy).Contents (Elt Ideal)) (x3 : (⟨S32x8, .f32⟩ : BufTy).Contents (Elt Ideal))
    (x4 : (⟨S64x8, .f32⟩ : BufTy).Contents (Elt Ideal)) (x5 : (⟨S128x8, .f32⟩ : BufTy).Contents (Elt Ideal)) (x6 : (⟨S256x8, .f32⟩ : BufTy).Contents (Elt Ideal)) :
    val_main_v188 (F := Ideal) x0 x1 x2 x3 x4 x5 x6
      = G 2000000 joinFact x0 x1 x2 x3 x4 x5 x6 := by
  unfold val_main_v188 G
  rw [level0_eq, level1_eq, level2_eq, level3_eq, level4_eq, level5_eq]

end Cert.ReferenceIdeal.RefValue

end
-- ==== Proof.lean ====
/-
  Two programs for a multi-resolution table lookup agree on the extended reals.

  For each of 2,000,000 coordinates t, confined to [0, 1], and six tables of 8, 16, 32, 64, 128 and 256 rows of 8
  channels, both programs compute per table the position u * (S - 1), its integer cell clamped into [0, S - 2], the
  fraction, and the linear interpolation row(cell) * (1 - frac) + row(cell + 1) * frac, and join the six results into
  48 columns. The reference gathers the two rows; the kernel multiplies the table by a weight row that holds 1 - frac
  and frac at the two positions and zero elsewhere. A sum of products in which all but two weights are zero is the sum
  of the two remaining products — zero times any extended real is zero — so no finiteness of the inputs is used, and
  both programs apply the same operations to the same literal words on the way to the cell and the fraction, so these
  agree whatever the coordinate. The clamp alone puts the cell in [0, S - 2]: both rows exist, the reference's
  negative-index wrap and the gather's own clamp change nothing.
  The kernel's frame and run, the reference's run and its stages read at an index are generated modules; written by
  hand are the two patterns (one level as the kernel and as the reference compute it), their reading at an index,
  the block a grid point writes, the passage from blocks to the whole array, and that the reference's result is the
  same function.
-/
import proofs.«139334_j30185030156575_2_alg».proof.Defs
import proofs.«139334_j30185030156575_2_alg».proof.Proof.Gen.Kernel
import proofs.«139334_j30185030156575_2_alg».proof.Proof.Gen.Kernel.Skeleton
import proofs.«139334_j30185030156575_2_alg».proof.Proof.Gen.Kernel.Launch
import proofs.«139334_j30185030156575_2_alg».proof.Proof.Gen.Kernel.Points
import proofs.«139334_j30185030156575_2_alg».proof.Proof.Gen.Kernel.Frame
import proofs.«139334_j30185030156575_2_alg».proof.Proof.Gen.KernelIdeal
import proofs.«139334_j30185030156575_2_alg».proof.Proof.Gen.KernelIdeal.Skeleton
import proofs.«139334_j30185030156575_2_alg».proof.Proof.Gen.KernelIdeal.Launch
import proofs.«139334_j30185030156575_2_alg».proof.Proof.Gen.KernelIdeal.Points
import proofs.«139334_j30185030156575_2_alg».proof.Proof.Gen.KernelIdeal.Frame
import proofs.«139334_j30185030156575_2_alg».proof.Proof.Gen.ReferenceIdeal
import proofs.«139334_j30185030156575_2_alg».proof.Proof.Gen.Pre_finite_inputs
import proofs.«139334_j30185030156575_2_alg».proof.Proof.Gen.KernelIdeal.Value
import proofs.«139334_j30185030156575_2_alg».proof.Proof.Gen.ReferenceIdeal.Run
import proofs.«139334_j30185030156575_2_alg».proof.Proof.Gen.ReferenceIdeal.Read
import proofs.«139334_j30185030156575_2_alg».proof.Proof.KernelValue
import proofs.«139334_j30185030156575_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at the specification of arguments that agree. -/
theorem algebraic : Cert.algebraic_KernelIdeal_ReferenceIdeal := by
  intro m ρ m' ρ' _ hagree
  refine ⟨fun c => Cert.Spec.G 2000000 Cert.ReferenceIdeal.RefValue.joinFact
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Whole.run Cert.ReferenceIdeal.RefValue.joinFact m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v188_eq, Cert.ReferenceIdeal.RefValue.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
